-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S1600000 : Shape := ⟨1, ![1600000]⟩
abbrev S512 : Shape := ⟨1, ![512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S512x128 .f32) (main_arg6 : FVec F S128 .f32) (main_arg7 : FVec F S128x40 .f32) (main_arg8 : FVec F S40 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg8 main_v33

def fn {F : FTy → Type} [FloatOps F] (main_arg0 : FVec F S100000x512 .f32) (main_arg1 : IVec S2x1600000 32) (main_arg2 : FVec F S1600000 .f32) (main_arg3 : FVec F S512 .f32) (main_arg4 : FVec F S512 .f32) (main_arg5 : FVec F S512x128 .f32) (main_arg6 : FVec F S128 .f32) (main_arg7 : FVec F S128x40 .f32) (main_arg8 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S100000x512 : Shape := ⟨2, ![100000, 512]⟩
abbrev S2x1600000 : Shape := ⟨2, ![2, 1600000]⟩
abbrev S1600000 : Shape := ⟨1, ![1600000]⟩
abbrev S512 : Shape := ⟨1, ![512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x512 : Shape := ⟨2, ![1, 512]⟩
abbrev S1x128 : Shape := ⟨2, ![1, 128]⟩
abbrev S1x40 : Shape := ⟨2, ![1, 40]⟩
abbrev S100000x128 : Shape := ⟨2, ![100000, 128]⟩
abbrev S2000x512 : Shape := ⟨2, ![2000, 512]⟩
abbrev S2000x128 : Shape := ⟨2, ![2000, 128]⟩
abbrev S2000 : Shape := ⟨1, ![2000]⟩
abbrev S2000x1 : Shape := ⟨2, ![2000, 1]⟩
abbrev S1600000x128 : Shape := ⟨2, ![1600000, 128]⟩
abbrev S100000x40 : Shape := ⟨2, ![100000, 40]⟩
abbrev S2000x40 : Shape := ⟨2, ![2000, 40]⟩
abbrev S1600000x40 : Shape := ⟨2, ![1600000, 40]⟩

abbrev nBuf : Space → Nat
  | .hbm => 82
  | .vmem => 26
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S1600000, .f32⟩
  | .hbm, ⟨3, _⟩ => ⟨S512, .f32⟩
  | .hbm, ⟨4, _⟩ => ⟨S512, .f32⟩
  | .hbm, ⟨5, _⟩ => ⟨S512x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000, .f32⟩
  | .hbm, ⟨42, _⟩ => ⟨S100000x1, .f32⟩
  | .hbm, ⟨43, _⟩ => ⟨S1x512, .f32⟩
  | .hbm, ⟨44, _⟩ => ⟨S1x512, .f32⟩
  | .hbm, ⟨45, _⟩ => ⟨S1x128, .f32⟩
  | .hbm, ⟨46, _⟩ => ⟨S1x40, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x1, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x40, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x40, .f32⟩
  | .hbm, ⟨74, _⟩ => ⟨S1600000x1, .f32⟩
  | .hbm, ⟨75, _⟩ => ⟨S1600000x40, .f32⟩
  | .hbm, ⟨76, _⟩ => ⟨S1600000x40, .f32⟩
  | .hbm, ⟨77, _⟩ => ⟨S_, .f32⟩
  | .hbm, ⟨78, _⟩ => ⟨S100000x40, .f32⟩
  | .hbm, ⟨79, _⟩ => ⟨S1600000x1, .i32⟩
  | .hbm, ⟨80, _⟩ => ⟨S100000x40, .f32⟩
  | .hbm, ⟨81, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S1x512, .f32⟩
  | .local _ .vmem, ⟨3, _⟩ => ⟨S1x512, .f32⟩
  | .local _ .vmem, ⟨4, _⟩ => ⟨S512x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S128x40, .f32⟩
  | .local _ .vmem, ⟨15, _⟩ => ⟨S2000x40, .f32⟩
  | .local _ .vmem, ⟨16, _⟩ => ⟨S2000x40, .f32⟩
  | .local _ .vmem, ⟨17, _⟩ => ⟨S2000x40, .f32⟩
  | .local _ .vmem, ⟨18, _⟩ => ⟨S2000x40, .f32⟩
  | .local _ .vmem, ⟨19, _⟩ => ⟨S2000x40, .f32⟩
  | .local _ .vmem, ⟨20, _⟩ => ⟨S2000x40, .f32⟩
  | .local _ .vmem, ⟨21, _⟩ => ⟨S2000x1, .f32⟩
  | .local _ .vmem, ⟨22, _⟩ => ⟨S2000x1, .f32⟩
  | .local _ .vmem, ⟨23, _⟩ => ⟨S1x40, .f32⟩
  | .local _ .vmem, ⟨24, _⟩ => ⟨S2000x40, .f32⟩
  | .local _ .vmem, ⟨25, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S100000_S100000x1 : S100000.ShapeCasts S100000x1
  shapeCasts_S512_S1x512 : S512.ShapeCasts S1x512
  shapeCasts_S128_S1x128 : S128.ShapeCasts S1x128
  shapeCasts_S40_S1x40 : S40.ShapeCasts S1x40
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S2000x40_S2000x40 : S2000x40.ShapeCasts S2000x40
  broadcasts_S2000x1_S2000x40 : S2000x1.Broadcasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x40_S2000x40_1_0_0_1_n_n_wf : DotDims.WF S2000x128 S128x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S100000x40.size a
  hwx1_5 : ∀ i : grid1.Coords, EltTy.bits .f32 = 32 ∨ (Rect.block (s := S100000x40) S2000x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x40.size a ≤ S100000x40.size a
  hwx2_1 : ∀ i : grid2.Coords, EltTy.bits .f32 = 32 ∨ (Rect.block (s := S100000x40) S2000x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x40.size a ≤ S100000x40.size a
  hwx2_4 : ∀ i : grid2.Coords, EltTy.bits .f32 = 32 ∨ (Rect.block (s := S100000x40) S2000x40.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S2000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S1600000 : Shape := ⟨1, ![1600000]⟩
abbrev S512 : Shape := ⟨1, ![512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S_ : Shape := ⟨0, ![]⟩
abbrev S100000 : Shape := ⟨1, ![100000]⟩
abbrev S100000x1 : Shape := ⟨2, ![100000, 1]⟩
abbrev S1x512 : Shape := ⟨2, ![1, 512]⟩
abbrev S100000x128 : Shape := ⟨2, ![100000, 128]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 163
  | .vmem => 0
  | .smem => 0
  | _ => 0

abbrev hbmTy0_0 (i : Nat) : BufTy := match i % 128 with
  | 0 => ⟨S100000x512, .f32⟩
  | 1 => ⟨S2x1600000, .i32⟩
  | 2 => ⟨S1600000, .f32⟩
  | 3 => ⟨S512, .f32⟩
  | 4 => ⟨S512, .f32⟩
  | 5 => ⟨S512x128, .f32⟩
  | 6 => ⟨S128, .f32⟩
  | 7 => ⟨S128x40, .f32⟩
  | 8 => ⟨S40, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S100000, .f32⟩
  | 15 => ⟨S100000x1, .f32⟩
  | 16 => ⟨S_, .f32⟩
  | 17 => ⟨S100000x1, .f32⟩
  | 18 => ⟨S100000x1, .f32⟩
  | 19 => ⟨S100000x512, .f32⟩
  | 20 => ⟨S100000x512, .f32⟩
  | 21 => ⟨S100000x512, .f32⟩
  | 22 => ⟨S_, .f32⟩
  | 23 => ⟨S100000, .f32⟩
  | 24 => ⟨S100000x1, .f32⟩
  | 25 => ⟨S_, .f32⟩
  | 26 => ⟨S100000x1, .f32⟩
  | 27 => ⟨S100000x1, .f32⟩
  | 28 => ⟨S100000x512, .f32⟩
  | 29 => ⟨S100000x512, .f32⟩
  | 30 => ⟨S_, .f32⟩
  | 31 => ⟨S100000x1, .f32⟩
  | 32 => ⟨S100000x1, .f32⟩
  | 33 => ⟨S100000x1, .f32⟩
  | 34 => ⟨S100000x512, .f32⟩
  | 35 => ⟨S100000x512, .f32⟩
  | 36 => ⟨S1x512, .f32⟩
  | 37 => ⟨S100000x512, .f32⟩
  | 38 => ⟨S100000x512, .f32⟩
  | 39 => ⟨S1x512, .f32⟩
  | 40 => ⟨S100000x512, .f32⟩
  | 41 => ⟨S100000x512, .f32⟩
  | 42 => ⟨S100000x128, .f32⟩
  | 43 => ⟨S_, .f32⟩
  | 44 => ⟨S100000, .f32⟩
  | 45 => ⟨S1600000x1, .i32⟩
  | 46 => ⟨S100000, .f32⟩
  | 47 => ⟨S_, .f32⟩
  | 48 => ⟨S100000, .f32⟩
  | 49 => ⟨S100000, .f32⟩
  | 50 => ⟨S100000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000, .f32⟩
  | 60 => ⟨S1600000, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000, .f32⟩
  | 70 => ⟨S1600000, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S1600000x1, .f32⟩
  | 81 => ⟨S1600000x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000, .f32⟩
  | 88 => ⟨S100000x1, .f32⟩
  | 89 => ⟨S100000x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S100000x40, .f32⟩
  | 96 => ⟨S_, .f32⟩
  | 97 => ⟨S100000, .f32⟩
  | 98 => ⟨S1600000x1, .i32⟩
  | 99 => ⟨S100000, .f32⟩
  | 100 => ⟨S_, .f32⟩
  | 101 => ⟨S100000, .f32⟩
  | 102 => ⟨S100000, .f32⟩
  | 103 => ⟨S100000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S1600000, .f32⟩
  | 124 => ⟨S_, .i32⟩
  | 125 => ⟨S1600000, .i32⟩
  | 126 => ⟨S1600000, .i1⟩
  | 127 => ⟨S_, .i32⟩
  | _ => ⟨S100000x512, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x40, .f32⟩
  | 5 => ⟨S1600000x1, .f32⟩
  | 6 => ⟨S1600000x40, .f32⟩
  | 7 => ⟨S1600000x40, .f32⟩
  | 8 => ⟨S_, .f32⟩
  | 9 => ⟨S100000x40, .f32⟩
  | 10 => ⟨S1600000x1, .i32⟩
  | 11 => ⟨S100000x40, .f32⟩
  | 12 => ⟨S100000, .f32⟩
  | 13 => ⟨S100000x1, .f32⟩
  | 14 => ⟨S100000x40, .f32⟩
  | 15 => ⟨S100000x40, .f32⟩
  | 16 => ⟨S100000x40, .f32⟩
  | 17 => ⟨S1x40, .f32⟩
  | 18 => ⟨S100000x40, .f32⟩
  | 19 => ⟨S100000x40, .f32⟩
  | 20 => ⟨S_, .f32⟩
  | 21 => ⟨S100000, .f32⟩
  | 22 => ⟨S_, .f32⟩
  | 23 => ⟨S100000, .f32⟩
  | 24 => ⟨S100000, .f32⟩
  | 25 => ⟨S100000x1, .f32⟩
  | 26 => ⟨S100000x40, .f32⟩
  | 27 => ⟨S100000x40, .f32⟩
  | 28 => ⟨S100000x40, .f32⟩
  | 29 => ⟨S_, .f32⟩
  | 30 => ⟨S100000, .f32⟩
  | 31 => ⟨S100000x1, .f32⟩
  | 32 => ⟨S100000x1, .f32⟩
  | 33 => ⟨S100000x40, .f32⟩
  | 34 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_14 : Ref sig .tc := ⟨.hbm, 104, rfl⟩
abbrev main_v79 : Ref sig .tc := ⟨.hbm, 105, rfl⟩
abbrev main_v80 : Ref sig .tc := ⟨.hbm, 106, rfl⟩
abbrev main_c_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_16 : Ref sig .tc := ⟨.hbm, 114, rfl⟩
abbrev main_v87 : Ref sig .tc := ⟨.hbm, 115, rfl⟩
abbrev main_v88 : Ref sig .tc := ⟨.hbm, 116, rfl⟩
abbrev main_c_17 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_18 : Ref sig .tc := ⟨.hbm, 124, rfl⟩
abbrev main_v95 : Ref sig .tc := ⟨.hbm, 125, rfl⟩
abbrev main_v96 : Ref sig .tc := ⟨.hbm, 126, rfl⟩
abbrev main_c_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_20 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_call0_cst : Ref sig .tc := ⟨.hbm, 148, rfl⟩
abbrev main_call0_v0 : Ref sig .tc := ⟨.hbm, 149, rfl⟩
abbrev main_call0_cst_0 : Ref sig .tc := ⟨.hbm, 150, rfl⟩
abbrev main_call0_v1 : Ref sig .tc := ⟨.hbm, 151, rfl⟩
abbrev main_call0_v2 : Ref sig .tc := ⟨.hbm, 152, rfl⟩
abbrev main_call0_v3 : Ref sig .tc := ⟨.hbm, 153, rfl⟩
abbrev main_call0_v4 : Ref sig .tc := ⟨.hbm, 154, rfl⟩
abbrev main_call0_v5 : Ref sig .tc := ⟨.hbm, 155, rfl⟩
abbrev main_call0_v6 : Ref sig .tc := ⟨.hbm, 156, rfl⟩
abbrev main_call0_cst_1 : Ref sig .tc := ⟨.hbm, 157, rfl⟩
abbrev main_call0_v7 : Ref sig .tc := ⟨.hbm, 158, rfl⟩
abbrev main_call0_v8 : Ref sig .tc := ⟨.hbm, 159, rfl⟩
abbrev main_call0_v9 : Ref sig .tc := ⟨.hbm, 160, rfl⟩
abbrev main_call0_v10 : Ref sig .tc := ⟨.hbm, 161, rfl⟩
abbrev main_v116 : Ref sig .tc := ⟨.hbm, 162, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S100000x512_S100000_d1 : S100000x512.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  dot_S100000x512_S512x128_S100000x128_1_0_0_1_n_n_wf : DotDims.WF S100000x512 S512x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelFold.lean ====
/- The run of @main read at its result buffer: every weakly fair execution on the TensorCores terminates with the
   result buffer at the last boundary's contents and every argument array as launched; then the lemmas that walk each
   buffer of interest back through the fold of boundary contents (host stretch, region, host stretch, ...) to either
   the launch memory, a pure function of it, or a region's folded write-backs. -/
import proofs.«106843_j16415365005353_1_alg».proof.Proof.Gen.KernelIdeal.Frame
import Idealize.ShloMosaic.Lib.StableHlo.Run

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, read at the result buffer -/

set_option backward.isDefEq.respectTransparency.types false in
/-- From any memory with zero counters, every weakly fair execution of @main on the TensorCores terminates, nothing
    faulting, and in every final state the result buffer `main_v60` holds the last boundary's contents `W6` there,
    while every argument array is as launched. The final thread state holds EVERY unscoped buffer at `W6`; the result
    buffer is one of them, and each argument's `W6` walks back to the launch memory. -/
theorem run_value : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

/-! ## The pure functions the host stretches compute -/

/-- The edges' source nodes: row 0 of the edge index, as a vector over the edges. -/
def srcOf (x1 : IVec S2x1600000 32) : IVec S1600000 32 :=
  shapeCast S1600000 (extractStridedSlice S1x1600000 ![0, 0] x1 slices_S2x1600000_S1x1600000_0_0) shapeCasts_S1x1600000_S1600000

/-- The edges' destination nodes: row 1 of the edge index. -/
def dstOf (x1 : IVec S2x1600000 32) : IVec S1600000 32 :=
  shapeCast S1600000 (extractStridedSlice S1x1600000 ![1, 0] x1 slices_S2x1600000_S1x1600000_1_0) shapeCasts_S1x1600000_S1600000

/-- A node index read the way an indexing operation reads it: a negative one counts from the end (100000 added). -/
def wrapIdx (i : IVec S1600000 32) : IVec S1600000 32 :=
  select (cmpi .slt i (broadcastInDim S1600000 ![] bcast_S_S1600000 (constantI S_ 32 0#32)))
    (addi i (broadcastInDim S1600000 ![] bcast_S_S1600000 (constantI S_ 32 100000#32))) i

/-- The inverse square root of each node's degree: the edge weights summed into their destination nodes, one added
    (the self loop), then the reciprocal square root. -/
def dinvOf (x1 : IVec S2x1600000 32) (x2 : FVec F S1600000 .f32) : FVec F S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (dstOf x1)) x2)
    (broadcastInDim S100000 ![] bcast_S_S100000 (constant S_ .f32 0x3F800000#32)))

/-- Each edge's normalised weight: its weight times the inverse square root degrees of its two ends. -/
def normOf (x1 : IVec S2x1600000 32) (x2 : FVec F S1600000 .f32) : FVec F S1600000 .f32 :=
  mulf
    (mulf (Host.gather gather_S100000_S1600000x1_S1600000_n_0_n_n_0_1_1 (dinvOf x1 x2)
        (broadcastInDim S1600000x1 ![0] bcast_S1600000_S1600000x1_0 (wrapIdx (srcOf x1)))) x2)
    (Host.gather gather_S100000_S1600000x1_S1600000_n_0_n_n_0_1_1 (dinvOf x1 x2)
      (broadcastInDim S1600000x1 ![0] bcast_S1600000_S1600000x1_0 (wrapIdx (dstOf x1))))

/-- The self loops' weights, one per node as a column: the inverse degree. -/
def dinvSqCol (x1 : IVec S2x1600000 32) (x2 : FVec F S1600000 .f32) : FVec F S100000x1 .f32 :=
  shapeCast S100000x1 (mulf (dinvOf x1 x2) (dinvOf x1 x2)) shapeCasts_S100000_S100000x1

/-- One round of neighbourhood aggregation at feature width 128, from a feature table `h`, the edges' ends and
    their normalised weights: each edge gathers its source's row, scales it by the edge's weight, and the scaled rows
    are summed into their destination nodes, from zero. -/
def agg128 (h : FVec F S100000x128 .f32) (src dst : IVec S1600000 32) (norm : FVec F S1600000 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf
      (Host.gather gather_S100000x128_S1600000x1_S1600000x128_1_0_n_n_0_1_1128 h
        (broadcastInDim S1600000x1 ![0] bcast_S1600000_S1600000x1_0 (wrapIdx src)))
      (broadcastInDim S1600000x128 ![0, 1] bcast_S1600000x1_S1600000x128_0_1
        (broadcastInDim S1600000x1 ![0] bcast_S1600000_S1600000x1_0 norm)))

/-- The same round at feature width 40. -/
def agg40 (h : FVec F S100000x40 .f32) (src dst : IVec S1600000 32) (norm : FVec F S1600000 .f32) : FVec F S100000x40 .f32 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 dst)
    (mulf
      (Host.gather gather_S100000x40_S1600000x1_S1600000x40_1_0_n_n_0_1_140 h
        (broadcastInDim S1600000x1 ![0] bcast_S1600000_S1600000x1_0 (wrapIdx src)))
      (broadcastInDim S1600000x40 ![0, 1] bcast_S1600000x1_S1600000x40_0_1
        (broadcastInDim S1600000x1 ![0] bcast_S1600000_S1600000x1_0 norm)))

/-- The aggregation at width 128 as a function of the feature table, the edge index and the edge weights. -/
def aggregate128 (h : FVec F S100000x128 .f32) (x1 : IVec S2x1600000 32) (x2 : FVec F S1600000 .f32) : FVec F S100000x128 .f32 :=
  agg128 h (srcOf x1) (dstOf x1) (normOf x1 x2)

/-- The aggregation at width 40 as a function of the feature table, the edge index and the edge weights. -/
def aggregate40 (h : FVec F S100000x40 .f32) (x1 : IVec S2x1600000 32) (x2 : FVec F S1600000 .f32) : FVec F S100000x40 .f32 :=
  agg40 h (srcOf x1) (dstOf x1) (normOf x1 x2)

/-! ## Walking a buffer through a host stretch it does not write -/

/-- A buffer none of a stretch's operations writes holds after the stretch what it held before: the stretch's
    operations, listed, each write one result buffer, and the buffer asked about is a different reference from each. -/
local macro "keep_through " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Region 0's inputs when it is entered -/

/-- The first stretch writes no argument array: region 0 reads the node features as launched. -/
theorem V1_main_arg0 (c : Dev nD) : V1 m ρ c main_arg0 = m ((c : Thread nD τ).loc main_arg0) :=
  (show StableHlo.after hostOps0 (W0 m ρ c) (Proc.devRef .tc main_arg0) = W0 m ρ c (Proc.devRef .tc main_arg0) by
    keep_through hostOps0).trans rfl

/-- Likewise the first layer's weight matrix. -/
theorem V1_main_arg5 (c : Dev nD) : V1 m ρ c main_arg5 = m ((c : Thread nD τ).loc main_arg5) :=
  (show StableHlo.after hostOps0 (W0 m ρ c) (Proc.devRef .tc main_arg5) = W0 m ρ c (Proc.devRef .tc main_arg5) by
    keep_through hostOps0).trans rfl

/-- The normalisation's scale as region 0 reads it: the launched vector of 512 entries recast as one row. -/
theorem V1_main_v28 (c : Dev nD) : (V1 m ρ c main_v28 : S1x512.Idx → Elt F .f32)
    = shapeCast S1x512 (m ((c : Thread nD τ).loc main_arg3) : S512.Idx → Elt F .f32) shapeCasts_S512_S1x512 := by
  show StableHlo.after hostOps0 (W0 m ρ c) (Proc.devRef .tc main_v28) = _
  after_results; rfl

/-- The normalisation's shift as region 0 reads it: the launched vector of 512 entries recast as one row. -/
theorem V1_main_v29 (c : Dev nD) : (V1 m ρ c main_v29 : S1x512.Idx → Elt F .f32)
    = shapeCast S1x512 (m ((c : Thread nD τ).loc main_arg4) : S512.Idx → Elt F .f32) shapeCasts_S512_S1x512 := by
  show StableHlo.after hostOps0 (W0 m ρ c) (Proc.devRef .tc main_v29) = _
  after_results; rfl

/-! ## Region 0's output -/

/-- Region 0's output array leaves the region holding its write-backs, folded over the grid's points. -/
theorem W2_main_v32 (c : Dev nD) : W2 m ρ c (Proc.devRef .tc main_v32) = (dat0 (V1 m ρ) c).arrAt 4 cfg0.N :=
  W2_arr m ρ c 4

/-! ## What the first stretch leaves in the buffers the later segments read -/

theorem V1_main_v1 (c : Dev nD) : (V1 m ρ c main_v1 : IVec S1600000 32) = srcOf (m ((c : Thread nD τ).loc main_arg1)) := by
  show StableHlo.after hostOps0 (W0 m ρ c) (Proc.devRef .tc main_v1) = _
  after_results; rfl

theorem V1_main_v3 (c : Dev nD) : (V1 m ρ c main_v3 : IVec S1600000 32) = dstOf (m ((c : Thread nD τ).loc main_arg1)) := by
  show StableHlo.after hostOps0 (W0 m ρ c) (Proc.devRef .tc main_v3) = _
  after_results; rfl

theorem V1_main_v27 (c : Dev nD) : (V1 m ρ c main_v27 : FVec F S100000x1 .f32)
    = dinvSqCol (m ((c : Thread nD τ).loc main_arg1)) (m ((c : Thread nD τ).loc main_arg2)) := by
  show StableHlo.after hostOps0 (W0 m ρ c) (Proc.devRef .tc main_v27) = _
  after_results; rfl

set_option maxHeartbeats 1000000 in
theorem V1_main_v25 (c : Dev nD) : (V1 m ρ c main_v25 : FVec F S1600000 .f32)
    = normOf (m ((c : Thread nD τ).loc main_arg1)) (m ((c : Thread nD τ).loc main_arg2)) := by
  show StableHlo.after hostOps0 (W0 m ρ c) (Proc.devRef .tc main_v25) = _
  after_results_simp; rfl

/-- The second layer's bias as the first stretch leaves it: the launched vector of 128 entries recast as one row. -/
theorem V1_main_v30 (c : Dev nD) : (V1 m ρ c main_v30 : S1x128.Idx → Elt F .f32)
    = shapeCast S1x128 (m ((c : Thread nD τ).loc main_arg6) : S128.Idx → Elt F .f32) shapeCasts_S128_S1x128 := by
  show StableHlo.after hostOps0 (W0 m ρ c) (Proc.devRef .tc main_v30) = _
  after_results; rfl

/-- The third layer's bias as the first stretch leaves it: the launched vector of 40 entries recast as one row. -/
theorem V1_main_v31 (c : Dev nD) : (V1 m ρ c main_v31 : S1x40.Idx → Elt F .f32)
    = shapeCast S1x40 (m ((c : Thread nD τ).loc main_arg8) : S40.Idx → Elt F .f32) shapeCasts_S40_S1x40 := by
  show StableHlo.after hostOps0 (W0 m ρ c) (Proc.devRef .tc main_v31) = _
  after_results; rfl

/-- The first stretch leaves the second layer's weight matrix as launched. -/
theorem V1_main_arg7 (c : Dev nD) : V1 m ρ c main_arg7 = m ((c : Thread nD τ).loc main_arg7) :=
  (show StableHlo.after hostOps0 (W0 m ρ c) (Proc.devRef .tc main_arg7) = W0 m ρ c (Proc.devRef .tc main_arg7) by
    keep_through hostOps0).trans rfl

/-! ## Through region 0: it writes its output array only, so every other buffer leaves it as it entered -/

theorem W2_main_v1 (c : Dev nD) : (W2 m ρ c (Proc.devRef .tc main_v1) : IVec S1600000 32) = srcOf (m ((c : Thread nD τ).loc main_arg1)) :=
  (W2_of_ne m ρ c main_v1 (by decide)).trans (V1_main_v1 m ρ c)
theorem W2_main_v3 (c : Dev nD) : (W2 m ρ c (Proc.devRef .tc main_v3) : IVec S1600000 32) = dstOf (m ((c : Thread nD τ).loc main_arg1)) :=
  (W2_of_ne m ρ c main_v3 (by decide)).trans (V1_main_v3 m ρ c)
theorem W2_main_v25 (c : Dev nD) : (W2 m ρ c (Proc.devRef .tc main_v25) : FVec F S1600000 .f32)
    = normOf (m ((c : Thread nD τ).loc main_arg1)) (m ((c : Thread nD τ).loc main_arg2)) :=
  (W2_of_ne m ρ c main_v25 (by decide)).trans (V1_main_v25 m ρ c)
theorem W2_main_v27 (c : Dev nD) : (W2 m ρ c (Proc.devRef .tc main_v27) : FVec F S100000x1 .f32)
    = dinvSqCol (m ((c : Thread nD τ).loc main_arg1)) (m ((c : Thread nD τ).loc main_arg2)) :=
  (W2_of_ne m ρ c main_v27 (by decide)).trans (V1_main_v27 m ρ c)
theorem W2_main_v30 (c : Dev nD) : (W2 m ρ c (Proc.devRef .tc main_v30) : S1x128.Idx → Elt F .f32)
    = shapeCast S1x128 (m ((c : Thread nD τ).loc main_arg6) : S128.Idx → Elt F .f32) shapeCasts_S128_S1x128 :=
  (W2_of_ne m ρ c main_v30 (by decide)).trans (V1_main_v30 m ρ c)
theorem W2_main_v31 (c : Dev nD) : (W2 m ρ c (Proc.devRef .tc main_v31) : S1x40.Idx → Elt F .f32)
    = shapeCast S1x40 (m ((c : Thread nD τ).loc main_arg8) : S40.Idx → Elt F .f32) shapeCasts_S40_S1x40 :=
  (W2_of_ne m ρ c main_v31 (by decide)).trans (V1_main_v31 m ρ c)
theorem W2_main_arg7 (c : Dev nD) : W2 m ρ c (Proc.devRef .tc main_arg7) = m ((c : Thread nD τ).loc main_arg7) :=
  (W2_of_ne m ρ c main_arg7 (by decide)).trans (V1_main_arg7 m ρ c)

/-! ## Region 1's inputs when it is entered -/

set_option maxHeartbeats 1000000 in
/-- Region 1's first operand is the width-128 aggregation of region 0's output over the launched graph: the second
    stretch gathers, scales and scatter-adds region 0's output array, with the edges' ends and weights the first
    stretch computed (which region 0 left alone). -/
theorem V3_main_v45 (c : Dev nD) : (V3 m ρ c main_v45 : FVec F S100000x128 .f32)
    = aggregate128 (W2 m ρ c (Proc.devRef .tc main_v32)) (m ((c : Thread nD τ).loc main_arg1)) (m ((c : Thread nD τ).loc main_arg2)) := by
  show StableHlo.after hostOps1 (W2 m ρ c) (Proc.devRef .tc main_v45) = _
  after_results_simp
  rw [W2_main_v1, W2_main_v3, W2_main_v25]
  rfl

/-- The second stretch does not write region 0's output array. -/
theorem V3_main_v32 (c : Dev nD) : V3 m ρ c main_v32 = W2 m ρ c (Proc.devRef .tc main_v32) := by
  show StableHlo.after hostOps1 (W2 m ρ c) (Proc.devRef .tc main_v32) = _
  keep_through hostOps1

theorem V3_main_v27 (c : Dev nD) : (V3 m ρ c main_v27 : FVec F S100000x1 .f32)
    = dinvSqCol (m ((c : Thread nD τ).loc main_arg1)) (m ((c : Thread nD τ).loc main_arg2)) :=
  (show StableHlo.after hostOps1 (W2 m ρ c) (Proc.devRef .tc main_v27) = W2 m ρ c (Proc.devRef .tc main_v27) by
    keep_through hostOps1).trans (W2_main_v27 m ρ c)

theorem V3_main_v30 (c : Dev nD) : (V3 m ρ c main_v30 : S1x128.Idx → Elt F .f32)
    = shapeCast S1x128 (m ((c : Thread nD τ).loc main_arg6) : S128.Idx → Elt F .f32) shapeCasts_S128_S1x128 :=
  (show StableHlo.after hostOps1 (W2 m ρ c) (Proc.devRef .tc main_v30) = W2 m ρ c (Proc.devRef .tc main_v30) by
    keep_through hostOps1).trans (W2_main_v30 m ρ c)

theorem V3_main_arg7 (c : Dev nD) : V3 m ρ c main_arg7 = m ((c : Thread nD τ).loc main_arg7) :=
  (show StableHlo.after hostOps1 (W2 m ρ c) (Proc.devRef .tc main_arg7) = W2 m ρ c (Proc.devRef .tc main_arg7) by
    keep_through hostOps1).trans (W2_main_arg7 m ρ c)

/-! ## Region 1's output -/

/-- Region 1's output array leaves the region holding its write-backs, folded over the grid's points. -/
theorem W4_main_v46 (c : Dev nD) : W4 m ρ c (Proc.devRef .tc main_v46) = (dat1 (V3 m ρ) c).arrAt 5 cfg1.N :=
  W4_arr m ρ c 5

/-! ## Through the second stretch and region 1: the graph's arrays and the biases go on unchanged

The second stretch writes only its own intermediate results. Region 1 writes its output array only; of the buffers
below it reads the self loops' column through an input window, which leaves the array as entered. -/

theorem V3_main_v1 (c : Dev nD) : (V3 m ρ c main_v1 : IVec S1600000 32) = srcOf (m ((c : Thread nD τ).loc main_arg1)) :=
  (show StableHlo.after hostOps1 (W2 m ρ c) (Proc.devRef .tc main_v1) = W2 m ρ c (Proc.devRef .tc main_v1) by
    keep_through hostOps1).trans (W2_main_v1 m ρ c)
theorem V3_main_v3 (c : Dev nD) : (V3 m ρ c main_v3 : IVec S1600000 32) = dstOf (m ((c : Thread nD τ).loc main_arg1)) :=
  (show StableHlo.after hostOps1 (W2 m ρ c) (Proc.devRef .tc main_v3) = W2 m ρ c (Proc.devRef .tc main_v3) by
    keep_through hostOps1).trans (W2_main_v3 m ρ c)
theorem V3_main_v25 (c : Dev nD) : (V3 m ρ c main_v25 : FVec F S1600000 .f32)
    = normOf (m ((c : Thread nD τ).loc main_arg1)) (m ((c : Thread nD τ).loc main_arg2)) :=
  (show StableHlo.after hostOps1 (W2 m ρ c) (Proc.devRef .tc main_v25) = W2 m ρ c (Proc.devRef .tc main_v25) by
    keep_through hostOps1).trans (W2_main_v25 m ρ c)
theorem V3_main_v31 (c : Dev nD) : (V3 m ρ c main_v31 : S1x40.Idx → Elt F .f32)
    = shapeCast S1x40 (m ((c : Thread nD τ).loc main_arg8) : S40.Idx → Elt F .f32) shapeCasts_S40_S1x40 :=
  (show StableHlo.after hostOps1 (W2 m ρ c) (Proc.devRef .tc main_v31) = W2 m ρ c (Proc.devRef .tc main_v31) by
    keep_through hostOps1).trans (W2_main_v31 m ρ c)

theorem W4_main_v1 (c : Dev nD) : (W4 m ρ c (Proc.devRef .tc main_v1) : IVec S1600000 32) = srcOf (m ((c : Thread nD τ).loc main_arg1)) :=
  (W4_of_ne m ρ c main_v1 (by decide)).trans (V3_main_v1 m ρ c)
theorem W4_main_v3 (c : Dev nD) : (W4 m ρ c (Proc.devRef .tc main_v3) : IVec S1600000 32) = dstOf (m ((c : Thread nD τ).loc main_arg1)) :=
  (W4_of_ne m ρ c main_v3 (by decide)).trans (V3_main_v3 m ρ c)
theorem W4_main_v25 (c : Dev nD) : (W4 m ρ c (Proc.devRef .tc main_v25) : FVec F S1600000 .f32)
    = normOf (m ((c : Thread nD τ).loc main_arg1)) (m ((c : Thread nD τ).loc main_arg2)) :=
  (W4_of_ne m ρ c main_v25 (by decide)).trans (V3_main_v25 m ρ c)
theorem W4_main_v31 (c : Dev nD) : (W4 m ρ c (Proc.devRef .tc main_v31) : S1x40.Idx → Elt F .f32)
    = shapeCast S1x40 (m ((c : Thread nD τ).loc main_arg8) : S40.Idx → Elt F .f32) shapeCasts_S40_S1x40 :=
  (W4_of_ne m ρ c main_v31 (by decide)).trans (V3_main_v31 m ρ c)
/-- The self loops' column is an input array of region 1: the pipeline leaves an input array as it was entered. -/
theorem W4_main_v27 (c : Dev nD) : (W4 m ρ c (Proc.devRef .tc main_v27) : FVec F S100000x1 .f32)
    = dinvSqCol (m ((c : Thread nD τ).loc main_arg1)) (m ((c : Thread nD τ).loc main_arg2)) :=
  (W4_arr m ρ c 2).trans ((((dat1 (V3 m ρ) c).arrAt_in 2 rfl _).trans (A_eq1 (V3 m ρ) c 2)).trans (V3_main_v27 m ρ c))

/-! ## Region 2's inputs when it is entered -/

set_option maxHeartbeats 1000000 in
/-- Region 2's first operand is the width-40 aggregation of region 1's output over the launched graph. -/
theorem V5_main_v59 (c : Dev nD) : (V5 m ρ c main_v59 : FVec F S100000x40 .f32)
    = aggregate40 (W4 m ρ c (Proc.devRef .tc main_v46)) (m ((c : Thread nD τ).loc main_arg1)) (m ((c : Thread nD τ).loc main_arg2)) := by
  show StableHlo.after hostOps2 (W4 m ρ c) (Proc.devRef .tc main_v59) = _
  after_results_simp
  rw [W4_main_v1, W4_main_v3, W4_main_v25]
  rfl

/-- The third stretch does not write region 1's output array. -/
theorem V5_main_v46 (c : Dev nD) : V5 m ρ c main_v46 = W4 m ρ c (Proc.devRef .tc main_v46) := by
  show StableHlo.after hostOps2 (W4 m ρ c) (Proc.devRef .tc main_v46) = _
  keep_through hostOps2

theorem V5_main_v27 (c : Dev nD) : (V5 m ρ c main_v27 : FVec F S100000x1 .f32)
    = dinvSqCol (m ((c : Thread nD τ).loc main_arg1)) (m ((c : Thread nD τ).loc main_arg2)) :=
  (show StableHlo.after hostOps2 (W4 m ρ c) (Proc.devRef .tc main_v27) = W4 m ρ c (Proc.devRef .tc main_v27) by
    keep_through hostOps2).trans (W4_main_v27 m ρ c)

theorem V5_main_v31 (c : Dev nD) : (V5 m ρ c main_v31 : S1x40.Idx → Elt F .f32)
    = shapeCast S1x40 (m ((c : Thread nD τ).loc main_arg8) : S40.Idx → Elt F .f32) shapeCasts_S40_S1x40 :=
  (show StableHlo.after hostOps2 (W4 m ρ c) (Proc.devRef .tc main_v31) = W4 m ρ c (Proc.devRef .tc main_v31) by
    keep_through hostOps2).trans (W4_main_v31 m ρ c)

/-! ## Region 2's output -/

/-- The result array leaves region 2 holding its write-backs, folded over the grid's points. -/
theorem W6_main_v60 (c : Dev nD) : W6 m ρ c (Proc.devRef .tc main_v60) = (dat2 (V5 m ρ) c).arrAt 4 cfg2.N :=
  W6_arr m ρ c 4

end Cert.KernelIdeal.Fold

end
-- ==== Proof.RowOps.lean ====
/-
  The three dense stages of a two-layer graph convolution, each as ONE function of whole arrays, entry by entry, on the
  extended reals.

  * A feature row of width 512 is centred by its mean, scaled by the reciprocal root of its variance plus a small
    constant, multiplied entrywise by a gain and shifted by an offset (`lnRow`); the normalised row is then projected by a
    512 × 128 matrix (`normProj`).
  * A node's hidden row is the neighbours' aggregate plus the node's own row weighted by its squared inverse root
    degree plus a bias (`selfLoop`); the 128-wide row is projected by a 128 × 40 matrix (`loopProj`).
  * The 40-wide row built the same way is turned into log-probabilities: the row minus its maximum, minus the logarithm of
    the sum of the exponentials of those differences (`logSoftmaxRow`, `loopLogSoftmax`).

  Every function is row-wise: entry (r, j) of a result depends on row r of the row-indexed operands only, which is what lets
  a tiling of the node axis compute it block by block. The number of rows is a parameter, and every function takes the
  entry's two coordinates separately.
-/
import Idealize.ShloMosaic.PureOps.Ideal
import Idealize.ShloMosaic.Lib.ValueIdx

noncomputable section

namespace Cert.Gcn

open Idealize.ShloMosaic Idealize.ShloMosaic.ValueIdx

/-- The mean of a row of 512 entries: their sum divided by 512. -/
def rowMean (x : Fin 512 → EReal) : EReal := Ideal.div (∑ k, x k) (Ideal.ofBits .f32 0x44000000#32)

/-- The variance of a row of 512 entries: the mean of the squared deviations from the row's mean. -/
def rowVar (x : Fin 512 → EReal) : EReal :=
  Ideal.div (∑ k, (x k - rowMean x) * (x k - rowMean x)) (Ideal.ofBits .f32 0x44000000#32)

/-- Entry k of the normalised row: the deviation from the mean times the reciprocal root of the variance plus the
    small constant, times the gain, plus the offset. -/
def lnRow (x g b : Fin 512 → EReal) (k : Fin 512) : EReal :=
  (x k - rowMean x) * Ideal.rsqrt (rowVar x + Ideal.ofBits .f32 0x3727C5AC#32) * g k + b k

/-- The normalised rows projected by a 512 × 128 matrix: entry (r, j) is the sum over k of the normalised row r at k times
    the matrix at (k, j). -/
def normProj {R : ℕ} (x : (⟨2, ![R, 512]⟩ : Shape).Idx → EReal) (g b : Fin 512 → EReal)
    (w : (⟨2, ![512, 128]⟩ : Shape).Idx → EReal) (r : Fin R) (j : Fin 128) : EReal :=
  ∑ k : Fin 512, lnRow (fun k' => x (ix2 r k')) g b k * w (ix2 k j)

/-- One entry of a node's row after the self loop and the bias: aggregate + own entry × squared inverse root degree +
    bias. -/
def selfLoop (agg own dsq bias : EReal) : EReal := agg + own * dsq + bias

/-- The 128-wide rows after the self loop, projected by a 128 × 40 matrix. -/
def loopProj {R : ℕ} (agg own : (⟨2, ![R, 128]⟩ : Shape).Idx → EReal) (dsq : Fin R → EReal) (bias : Fin 128 → EReal)
    (w : (⟨2, ![128, 40]⟩ : Shape).Idx → EReal) (r : Fin R) (j : Fin 40) : EReal :=
  ∑ k : Fin 128, selfLoop (agg (ix2 r k)) (own (ix2 r k)) (dsq r) (bias k) * w (ix2 k j)

/-- The maximum of a row of 40 entries, folded from minus infinity. -/
def rowMax (v : Fin 40 → EReal) : EReal := (Finset.univ : Finset (Fin 40)).fold max (Ideal.ofBits .f32 0xFF800000#32) v

/-- Entry j of the log-probabilities of a row of 40 scores: the score minus the row's maximum, minus the logarithm of the
    sum over the row of the exponentials of the scores minus the maximum. -/
def logSoftmaxRow (v : Fin 40 → EReal) (j : Fin 40) : EReal :=
  (v j - rowMax v) - Ideal.log (∑ j' : Fin 40, Ideal.exp (v j' - rowMax v))

/-- The 40-wide rows after the self loop, turned into log-probabilities row by row. -/
def loopLogSoftmax {R : ℕ} (agg own : (⟨2, ![R, 40]⟩ : Shape).Idx → EReal) (dsq : Fin R → EReal) (bias : Fin 40 → EReal)
    (r : Fin R) (j : Fin 40) : EReal :=
  logSoftmaxRow (fun j' => selfLoop (agg (ix2 r j')) (own (ix2 r j')) (dsq r) (bias j')) j

/-- `normProj` reads its feature array along one row and its matrix along one column only: arrays of any heights that agree
    there give the same entry. -/
theorem normProj_congr {R R' : ℕ} (x : (⟨2, ![R, 512]⟩ : Shape).Idx → EReal) (x' : (⟨2, ![R', 512]⟩ : Shape).Idx → EReal)
    (g g' b b' : Fin 512 → EReal) (w w' : (⟨2, ![512, 128]⟩ : Shape).Idx → EReal) (r : Fin R) (r' : Fin R') (j j' : Fin 128)
    (hx : ∀ k, x (ix2 r k) = x' (ix2 r' k)) (hg : g = g') (hb : b = b') (hw : ∀ k, w (ix2 k j) = w' (ix2 k j')) :
    normProj x g b w r j = normProj x' g' b' w' r' j' := by
  unfold normProj
  have hrow : (fun k' => x (ix2 r k')) = fun k' => x' (ix2 r' k') := funext hx
  subst hg hb
  rw [hrow]
  exact Finset.sum_congr rfl fun k _ => congrArg (lnRow _ g b k * ·) (hw k)

/-- `loopProj` reads its two row-indexed arrays along one row, the degree weights at that row, and its matrix along one
    column. -/
theorem loopProj_congr {R R' : ℕ} (agg own : (⟨2, ![R, 128]⟩ : Shape).Idx → EReal) (agg' own' : (⟨2, ![R', 128]⟩ : Shape).Idx → EReal)
    (dsq : Fin R → EReal) (dsq' : Fin R' → EReal) (bias bias' : Fin 128 → EReal) (w w' : (⟨2, ![128, 40]⟩ : Shape).Idx → EReal)
    (r : Fin R) (r' : Fin R') (j j' : Fin 40)
    (ha : ∀ k, agg (ix2 r k) = agg' (ix2 r' k)) (ho : ∀ k, own (ix2 r k) = own' (ix2 r' k)) (hd : dsq r = dsq' r')
    (hb : bias = bias') (hw : ∀ k, w (ix2 k j) = w' (ix2 k j')) :
    loopProj agg own dsq bias w r j = loopProj agg' own' dsq' bias' w' r' j' := by
  unfold loopProj
  subst hb
  exact Finset.sum_congr rfl fun k _ => by rw [ha k, ho k, hd, hw k]

/-- `loopLogSoftmax` reads its two row-indexed arrays along one row and the degree weights at that row. -/
theorem loopLogSoftmax_congr {R R' : ℕ} (agg own : (⟨2, ![R, 40]⟩ : Shape).Idx → EReal) (agg' own' : (⟨2, ![R', 40]⟩ : Shape).Idx → EReal)
    (dsq : Fin R → EReal) (dsq' : Fin R' → EReal) (bias bias' : Fin 40 → EReal) (r : Fin R) (r' : Fin R') (j j' : Fin 40)
    (ha : ∀ k, agg (ix2 r k) = agg' (ix2 r' k)) (ho : ∀ k, own (ix2 r k) = own' (ix2 r' k)) (hd : dsq r = dsq' r')
    (hb : bias = bias') (hj : j = j') :
    loopLogSoftmax agg own dsq bias r j = loopLogSoftmax agg' own' dsq' bias' r' j' := by
  unfold loopLogSoftmax
  subst hb hj
  have hrow : (fun j'' => selfLoop (agg (ix2 r j'')) (own (ix2 r j'')) (dsq r) (bias j''))
      = fun j'' => selfLoop (agg' (ix2 r' j'')) (own' (ix2 r' j'')) (dsq' r') (bias j'') :=
    funext fun k => by rw [ha k, ho k, hd]
  rw [hrow]

/-! ## The three stages on whole arrays

The gain, offset and bias enter as one-row arrays and the squared inverse root degrees as a one-column array, as the tiled
program passes them. -/

/-- Normalise every row of `x` with the gain row `g` and the offset row `b`, and project by `w`. -/
def normProjArr {R : ℕ} (x : (⟨2, ![R, 512]⟩ : Shape).Idx → EReal) (g b : (⟨2, ![1, 512]⟩ : Shape).Idx → EReal)
    (w : (⟨2, ![512, 128]⟩ : Shape).Idx → EReal) : (⟨2, ![R, 128]⟩ : Shape).Idx → EReal :=
  fun i => normProj x (fun k => g (ix2 (0 : Fin 1) k)) (fun k => b (ix2 (0 : Fin 1) k)) w (i 0) (i 1)

/-- Self loop and bias on every 128-wide row, then the projection by `w`. -/
def loopProjArr {R : ℕ} (agg own : (⟨2, ![R, 128]⟩ : Shape).Idx → EReal) (d : (⟨2, ![R, 1]⟩ : Shape).Idx → EReal)
    (b : (⟨2, ![1, 128]⟩ : Shape).Idx → EReal) (w : (⟨2, ![128, 40]⟩ : Shape).Idx → EReal) : (⟨2, ![R, 40]⟩ : Shape).Idx → EReal :=
  fun i => loopProj agg own (fun r => d (ix2 r (0 : Fin 1))) (fun k => b (ix2 (0 : Fin 1) k)) w (i 0) (i 1)

/-- Self loop and bias on every 40-wide row, then the row's log-probabilities. -/
def loopLogSoftmaxArr {R : ℕ} (agg own : (⟨2, ![R, 40]⟩ : Shape).Idx → EReal) (d : (⟨2, ![R, 1]⟩ : Shape).Idx → EReal)
    (b : (⟨2, ![1, 40]⟩ : Shape).Idx → EReal) : (⟨2, ![R, 40]⟩ : Shape).Idx → EReal :=
  fun i => loopLogSoftmax agg own (fun r => d (ix2 r (0 : Fin 1))) (fun j => b (ix2 (0 : Fin 1) j)) (i 0) (i 1)

/-- Folding `max` from a start value never falls below the start value, so taking the maximum with the start value again
    changes nothing. -/
theorem max_start_fold {ι : Type} (s : Finset ι) (b : EReal) (f : ι → EReal) : max b (s.fold max b f) = s.fold max b f :=
  max_eq_right ((Finset.le_fold_max b).mpr (Or.inl le_rfl))

end Cert.Gcn

end
-- ==== Proof.LibKeepdims.lean ====
/-
  Layout operations around a KEPT UNIT AXIS, read at an index, and sums over index sets with unit axes.

  A reduction with `keepdims=True` leaves a unit axis where the reduced axis was: a vector of length `a` is recast as an
  `a × 1` column (`shapeCast_a_a1_apply`), and such a column is broadcast along its unit axis to an `a × b` array
  (`broadcastTo_a1_ab_apply`). A sum over the indices of a shape whose axes are all of size one but one is the sum over
  that axis's coordinates (`sum_idx1`, `sum_idx3_11a`, `sum_idx3_1a1`, `sum_idx3_a11`): the indices are in bijection
  with the coordinates.
-/
import Idealize.ShloMosaic.Lib.ValueIdx
import Idealize.ShloMosaic.Lib.ValueLayout
import Idealize.ShloMosaic.Lib.Pipeline.Value

namespace Idealize.ShloMosaic.Keepdims

open Idealize.ShloMosaic.ValueIdx

variable {α : Type}

/-- A vector recast as a column: entry `(i, 0)` of the column is entry `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis: entry `(p, c)` of the result is entry `(p, 0)` of the column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the indices of a vector is the sum over its coordinates. -/
theorem sum_idx1 {M : Type*} [AddCommMonoid M] {n : ℕ} (f : (⟨1, ![n]⟩ : Shape).Idx → M) :
    ∑ i, f i = ∑ a : Fin n, f (ix1 a) := by
  refine (Function.Bijective.sum_comp (e := fun a : Fin n => (ix1 a : (⟨1, ![n]⟩ : Shape).Idx)) ⟨?_, ?_⟩ f).symm
  · intro a a' h; exact congrFun h 0
  · intro j; exact ⟨j 0, (eq_ix1 j).symm⟩

/-- A sum over the indices of a `1 × 1 × n` array is the sum over the last coordinate. -/
theorem sum_idx3_11a {M : Type*} [AddCommMonoid M] {n : ℕ} (f : (⟨3, ![1, 1, n]⟩ : Shape).Idx → M) :
    ∑ i, f i = ∑ a : Fin n, f (ix3 (0 : Fin 1) (0 : Fin 1) a) := by
  refine (Function.Bijective.sum_comp
    (e := fun a : Fin n => (ix3 (0 : Fin 1) (0 : Fin 1) a : (⟨3, ![1, 1, n]⟩ : Shape).Idx)) ⟨?_, ?_⟩ f).symm
  · intro a a' h; exact congrFun h 2
  · intro j
    have h0 : (j 0).val = 0 := by have : (j 0).val < 1 := (j 0).isLt; omega
    have h1 : (j 1).val = 0 := by have : (j 1).val < 1 := (j 1).isLt; omega
    exact ⟨j 2, funext fun d => match d with
      | ⟨0, _⟩ => Fin.ext h0.symm
      | ⟨1, _⟩ => Fin.ext h1.symm
      | ⟨2, _⟩ => rfl⟩

/-- A sum over the indices of a `1 × n × 1` array is the sum over the middle coordinate. -/
theorem sum_idx3_1a1 {M : Type*} [AddCommMonoid M] {n : ℕ} (f : (⟨3, ![1, n, 1]⟩ : Shape).Idx → M) :
    ∑ i, f i = ∑ a : Fin n, f (ix3 (0 : Fin 1) a (0 : Fin 1)) := by
  refine (Function.Bijective.sum_comp
    (e := fun a : Fin n => (ix3 (0 : Fin 1) a (0 : Fin 1) : (⟨3, ![1, n, 1]⟩ : Shape).Idx)) ⟨?_, ?_⟩ f).symm
  · intro a a' h; exact congrFun h 1
  · intro j
    have h0 : (j 0).val = 0 := by have : (j 0).val < 1 := (j 0).isLt; omega
    have h2 : (j 2).val = 0 := by have : (j 2).val < 1 := (j 2).isLt; omega
    exact ⟨j 1, funext fun d => match d with
      | ⟨0, _⟩ => Fin.ext h0.symm
      | ⟨1, _⟩ => rfl
      | ⟨2, _⟩ => Fin.ext h2.symm⟩

/-- A sum over the indices of an `n × 1 × 1` array is the sum over the first coordinate. -/
theorem sum_idx3_a11 {M : Type*} [AddCommMonoid M] {n : ℕ} (f : (⟨3, ![n, 1, 1]⟩ : Shape).Idx → M) :
    ∑ i, f i = ∑ a : Fin n, f (ix3 a (0 : Fin 1) (0 : Fin 1)) := by
  refine (Function.Bijective.sum_comp
    (e := fun a : Fin n => (ix3 a (0 : Fin 1) (0 : Fin 1) : (⟨3, ![n, 1, 1]⟩ : Shape).Idx)) ⟨?_, ?_⟩ f).symm
  · intro a a' h; exact congrFun h 0
  · intro j
    have h1 : (j 1).val = 0 := by have : (j 1).val < 1 := (j 1).isLt; omega
    have h2 : (j 2).val = 0 := by have : (j 2).val < 1 := (j 2).isLt; omega
    exact ⟨j 0, funext fun d => match d with
      | ⟨0, _⟩ => rfl
      | ⟨1, _⟩ => Fin.ext h1.symm
      | ⟨2, _⟩ => Fin.ext h2.symm⟩

end Idealize.ShloMosaic.Keepdims
-- ==== Proof.LibArrays.lean ====
/-
  Small general facts about arrays of literal shapes, used by the decoder's proof and tied to no program.

  * a product of a block of rows with a whole right operand, accumulated from zero, plus a bias vector added to every
    row, read at an entry;
  * a slot of a stack of matrices, loaded as a one-slot stack and cast to a matrix, read at an entry.
-/
import Idealize.ShloMosaic.Lib.Pipeline.Value
import Idealize.ShloMosaic.Lib.ValueIdx
import Idealize.ShloMosaic.Lib.ValueLayout
import Idealize.ShloMosaic.Lib.ValueIdxRank6
import Idealize.ShloMosaic.PureOps.Ideal.Laws

noncomputable section

namespace Cert.Decoder.Lib

open Idealize.ShloMosaic Idealize.ShloMosaic.ValueIdx

/-- Rows times a whole right operand, accumulated from the zero array: entry (p, q) is the sum over the shared axis. -/
theorem matmul_rows_apply {φ₁ φ₂ : FTy} (M K N : Nat) (x : FVec Ideal ⟨2, ![M, K]⟩ φ₁) (w : FVec Ideal ⟨2, ![K, N]⟩ φ₂)
    (p : Fin M) (q : Fin N) :
    (matmul (DotDims.plain M K N) none x w (constant ⟨2, ![M, N]⟩ .f32 0x00000000#32) : FVec Ideal ⟨2, ![M, N]⟩ .f32) (ix2 p q)
      = ∑ k : Fin K, x (ix2 p k) * w (ix2 k q) := by
  show FloatOps.matmul (DotDims.plain M K N) none x w (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A bias vector, cast to one row and broadcast down M rows, reads at (p, q) its entry q. -/
theorem bias_rows_apply {α : Type} (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- Slot 0 of a one-slot stack of matrices, cast to a matrix, reads at (k, f) the stack at (0, k, f). -/
theorem slot_apply {α : Type} (K N : Nat) (v : (⟨3, ![1, K, N]⟩ : Shape).Idx → α)
    (h : (⟨3, ![1, K, N]⟩ : Shape).ShapeCasts ⟨2, ![K, N]⟩) (k : Fin K) (f : Fin N) :
    shapeCast ⟨2, ![K, N]⟩ v h (ix2 k f) = v (ix3 (0 : Fin 1) k f) :=
  shapeCast_apply v h _ _ (by
    rw [Shape.rowMajor_val_three, Shape.rowMajor_val_two]
    show (0 * K + k.val) * N + f.val = k.val * N + f.val
    rw [Nat.zero_mul, Nat.zero_add])

end Cert.Decoder.Lib

end
-- ==== Proof.LibRowReduce.lean ====
/-
  Reductions along the second axis of a two-axis array, read at a row, on the extended reals.

  A lane reduction of an `a × b` array over its second axis leaves a vector of length `a`. With `add` its entry `p` is the sum
  over `k` of the array at `(p, k)` (`sum_axis1_apply`); with `maximumf` it is the fold of `max`, from the value the accumulator
  word denotes, over the same entries (`max_axis1_apply`). The host's reduction with a maximum body over the same axis is the
  same fold from its initial value (`hostMax_axis1_apply`).
-/
import Idealize.ShloMosaic.Lib.ValueIdx
import Idealize.ShloMosaic.Lib.Pipeline.Value
import Idealize.ShloMosaic.PureOps.Ideal.Laws

noncomputable section

namespace Idealize.ShloMosaic.RowReduce

open Idealize.ShloMosaic Idealize.ShloMosaic.ValueIdx

variable {φ : FTy}

/-- The index a reduction over the second axis inserts: row `p`, column `k`. -/
theorem lift_axis1 {a b : ℕ} (h : (⟨2, ![a, b]⟩ : Shape).Reduces [1] ⟨1, ![a]⟩) (p : Fin a) (k : Fin b) :
    h.lift (ix1 p) k = ix2 p k :=
  funext fun d => Fin.ext (by
    match d with
    | ⟨0, _⟩ => rfl
    | ⟨1, _⟩ => rfl)

/-- A lane sum over the second axis, at row `p`: the sum of the row's entries. -/
theorem sum_axis1_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_axis1 h p k))

/-- A lane maximum over the second axis, at row `p`: the fold of `max` over the row's entries from the accumulator's value. -/
theorem max_axis1_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg ((Finset.univ : Finset (Fin b)).fold max (Ideal.ofBits φ acc)) (funext fun k => congrArg v (lift_axis1 h p k)))

/-- The host's reduction with a maximum body over the second axis, at row `p`: the fold of `max` over the row's entries from
    the initial value. -/
theorem hostMax_axis1_apply {a b : ℕ} (x : FVec Ideal ⟨2, ![a, b]⟩ φ) {u : Shape} (init : u.Idx → Ideal φ)
    (h' : (⟨2, ![a, b]⟩ : Shape).ReducesTo [1] ⟨1, ![a]⟩) (h : (⟨2, ![a, b]⟩ : Shape).Reduces [1] ⟨1, ![a]⟩) (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu))) (funext fun k => congrArg x (lift_axis1 h p k)))

end Idealize.ShloMosaic.RowReduce

end
-- ==== Proof.KernelRows.lean ====
import proofs.«106843_j16415365005353_1_alg».proof.Proof.Gen.KernelIdeal.Skeleton
import proofs.«106843_j16415365005353_1_alg».proof.Proof.RowOps
import proofs.«106843_j16415365005353_1_alg».proof.Proof.LibKeepdims
import proofs.«106843_j16415365005353_1_alg».proof.Proof.LibArrays
import proofs.«106843_j16415365005353_1_alg».proof.Proof.LibRowReduce
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal Cert.KernelIdeal.Gen

/-! ## The first kernel: normalise a block of 2000 feature rows and project it

The block's arithmetic in named steps: the column of row means, the centred block, the column of reciprocal root
variances, the normalised block; the stored value is the normalised block times the projection matrix. -/

/-- The column of the block's row means: each row's sum divided by 512. -/
def meanCol (x0 : Vec Ideal S2000x512 .f32) : FVec Ideal S2000x1 .f32 :=
  divf (shapeCast S2000x1 (multiReduction .add [1] S2000 x0 0x00000000#32 reduces_S2000x512_S2000 (.inl rfl) rfl) shapeCasts_S2000_S2000x1)
    (broadcast S2000x1 (Scalar.ofBits .f32 0x44000000#32))

/-- The block with each row's mean subtracted. -/
def centred (x0 : Vec Ideal S2000x512 .f32) : FVec Ideal S2000x512 .f32 :=
  subf x0 (broadcastTo S2000x512 (meanCol x0) broadcasts_S2000x1_S2000x512)

/-- The column of reciprocal roots of (row variance + the small constant). -/
def rstdCol (x0 : Vec Ideal S2000x512 .f32) : FVec Ideal S2000x1 .f32 :=
  rsqrt (addf (divf (shapeCast S2000x1 (multiReduction .add [1] S2000 (mulf (centred x0) (centred x0)) 0x00000000#32 reduces_S2000x512_S2000 (.inl rfl) rfl) shapeCasts_S2000_S2000x1)
      (broadcast S2000x1 (Scalar.ofBits .f32 0x44000000#32)))
    (broadcast S2000x1 (Scalar.ofBits .f32 0x3727C5AC#32)))

/-- The normalised block: centred × reciprocal root × gain + offset, the gain and offset rows repeated down the block. -/
def normed (x0 : Vec Ideal S2000x512 .f32) (g b : Vec Ideal S1x512 .f32) : FVec Ideal S2000x512 .f32 :=
  addf (mulf (mulf (centred x0) (broadcastTo S2000x512 (rstdCol x0) broadcasts_S2000x1_S2000x512))
      (broadcastTo S2000x512 (shapeCast S1x512 g shapeCasts_S1x512_S1x512) broadcasts_S1x512_S2000x512))
    (broadcastTo S2000x512 (shapeCast S1x512 b shapeCasts_S1x512_S1x512) broadcasts_S1x512_S2000x512)

/-- The stored value is the normalised block times the projection matrix, accumulated from zero. -/
theorem k0_pay1_eq (x0 : Vec Ideal S2000x512 .f32) (g b : Vec Ideal S1x512 .f32) (w : Vec Ideal S512x128 .f32) :
    k0_pay1 (F := Ideal) x0 g b w
      = matmul dot_S2000x512_S512x128_S2000x128_1_0_0_1_n_n none (truncf .bf16 (normed x0 g b) bitsLt_bf16_f32)
          (truncf .bf16 w bitsLt_bf16_f32) (constant S2000x128 .f32 0x00000000#32) := rfl

/-- A column of row sums divided by 512, at row p. -/
theorem sumcol_div (v : FVec Ideal S2000x512 .f32) (p : Fin 2000) :
    divf (shapeCast S2000x1 (multiReduction (F := Ideal) .add [1] S2000 v 0x00000000#32 reduces_S2000x512_S2000 (.inl rfl) rfl) shapeCasts_S2000_S2000x1)
        (broadcast S2000x1 (Scalar.ofBits (F := Ideal) .f32 0x44000000#32)) (ix2 p (0 : Fin 1))
      = Ideal.div (∑ k : Fin 512, v (ix2 p k)) (Ideal.ofBits .f32 0x44000000#32) := by
  refine congrArg (Ideal.div · (Ideal.ofBits .f32 0x44000000#32)) ?_
  refine (Keepdims.shapeCast_a_a1_apply _ shapeCasts_S2000_S2000x1 p 0).trans ?_
  exact RowReduce.sum_axis1_apply v _ reduces_S2000x512_S2000 (.inl rfl) rfl p

theorem meanCol_apply (x0 : Vec Ideal S2000x512 .f32) (p : Fin 2000) :
    meanCol x0 (ix2 p (0 : Fin 1)) = Cert.Gcn.rowMean (fun k => x0 (ix2 p k)) := sumcol_div x0 p

theorem centred_apply (x0 : Vec Ideal S2000x512 .f32) (p : Fin 2000) (k : Fin 512) :
    centred x0 (ix2 p k) = x0 (ix2 p k) - Cert.Gcn.rowMean (fun k' => x0 (ix2 p k')) :=
  congrArg (x0 (ix2 p k) - ·)
    ((Keepdims.broadcastTo_a1_ab_apply (meanCol x0) broadcasts_S2000x1_S2000x512 p k).trans (meanCol_apply x0 p))

theorem rstdCol_apply (x0 : Vec Ideal S2000x512 .f32) (p : Fin 2000) :
    rstdCol x0 (ix2 p (0 : Fin 1))
      = Ideal.rsqrt (Cert.Gcn.rowVar (fun k => x0 (ix2 p k)) + Ideal.ofBits .f32 0x3727C5AC#32) := by
  refine congrArg (fun z => Ideal.rsqrt (z + Ideal.ofBits .f32 0x3727C5AC#32)) ?_
  refine (sumcol_div (mulf (centred x0) (centred x0)) p).trans ?_
  unfold Cert.Gcn.rowVar
  refine congrArg (Ideal.div · (Ideal.ofBits .f32 0x44000000#32)) (Finset.sum_congr rfl fun k _ => ?_)
  exact congrArg₂ (· * ·) (centred_apply x0 p k) (centred_apply x0 p k)

theorem normed_apply (x0 : Vec Ideal S2000x512 .f32) (g b : Vec Ideal S1x512 .f32) (p : Fin 2000) (k : Fin 512) :
    normed x0 g b (ix2 p k)
      = Cert.Gcn.lnRow (fun k' => x0 (ix2 p k')) (fun k' => g (ix2 (0 : Fin 1) k')) (fun k' => b (ix2 (0 : Fin 1) k')) k := by
  unfold Cert.Gcn.lnRow
  refine congrArg₂ (· + ·) (congrArg₂ (· * ·) (congrArg₂ (· * ·) (centred_apply x0 p k) ?_) ?_) ?_
  · exact (Keepdims.broadcastTo_a1_ab_apply (rstdCol x0) broadcasts_S2000x1_S2000x512 p k).trans (rstdCol_apply x0 p)
  · exact (broadcastTo_1b_ab_apply _ broadcasts_S1x512_S2000x512 p k).trans (congrFun (shapeCast_self g shapeCasts_S1x512_S1x512) _)
  · exact (broadcastTo_1b_ab_apply _ broadcasts_S1x512_S2000x512 p k).trans (congrFun (shapeCast_self b shapeCasts_S1x512_S1x512) _)

/-- Entry (p, q) of the block the first kernel stores: row p of the loaded feature block normalised and projected on
    column q of the loaded matrix. -/
theorem k0_entry (x0 : Vec Ideal S2000x512 .f32) (g b : Vec Ideal S1x512 .f32) (w : Vec Ideal S512x128 .f32) (p : Fin 2000) (q : Fin 128) :
    k0_pay1 (F := Ideal) x0 g b w (ix2 p q)
      = Cert.Gcn.normProj (R := 2000) x0 (fun k => g (ix2 (0 : Fin 1) k)) (fun k => b (ix2 (0 : Fin 1) k)) w p q := by
  rw [k0_pay1_eq]
  unfold Cert.Gcn.normProj
  refine (Cert.Decoder.Lib.matmul_rows_apply 2000 512 128 _ _ p q).trans ?_
  exact Finset.sum_congr rfl fun k _ => congrArg (· * w (ix2 k q)) (normed_apply x0 g b p k)

/-! ## The second kernel: self loop and bias on a block of 2000 hidden rows, then the second projection -/

/-- The block after the self loop and the bias: aggregate + own × squared inverse root degree (a column, repeated along
    the row) + bias (a row, repeated down the block). -/
def hidden1 (agg own : Vec Ideal S2000x128 .f32) (d : Vec Ideal S2000x1 .f32) (b : Vec Ideal S1x128 .f32) : FVec Ideal S2000x128 .f32 :=
  addf (addf (shapeCast S2000x128 agg shapeCasts_S2000x128_S2000x128)
      (mulf (shapeCast S2000x128 own shapeCasts_S2000x128_S2000x128)
        (broadcastTo S2000x128 (shapeCast S2000x1 d shapeCasts_S2000x1_S2000x1) broadcasts_S2000x1_S2000x128)))
    (broadcastTo S2000x128 (shapeCast S1x128 b shapeCasts_S1x128_S1x128) broadcasts_S1x128_S2000x128)

theorem k1_pay1_eq (agg own : Vec Ideal S2000x128 .f32) (d : Vec Ideal S2000x1 .f32) (b : Vec Ideal S1x128 .f32) (w : Vec Ideal S128x40 .f32) :
    k1_pay1 (F := Ideal) agg own d b w
      = matmul dot_S2000x128_S128x40_S2000x40_1_0_0_1_n_n none (truncf .bf16 (hidden1 agg own d b) bitsLt_bf16_f32)
          (truncf .bf16 w bitsLt_bf16_f32) (constant S2000x40 .f32 0x00000000#32) := rfl

theorem hidden1_apply (agg own : Vec Ideal S2000x128 .f32) (d : Vec Ideal S2000x1 .f32) (b : Vec Ideal S1x128 .f32) (p : Fin 2000) (k : Fin 128) :
    hidden1 agg own d b (ix2 p k)
      = Cert.Gcn.selfLoop (agg (ix2 p k)) (own (ix2 p k)) (d (ix2 p (0 : Fin 1))) (b (ix2 (0 : Fin 1) k)) := by
  unfold Cert.Gcn.selfLoop
  refine congrArg₂ (· + ·) (congrArg₂ (· + ·) ?_ (congrArg₂ (· * ·) ?_ ?_)) ?_
  · exact congrFun (shapeCast_self agg shapeCasts_S2000x128_S2000x128) _
  · exact congrFun (shapeCast_self own shapeCasts_S2000x128_S2000x128) _
  · exact (Keepdims.broadcastTo_a1_ab_apply _ broadcasts_S2000x1_S2000x128 p k).trans (congrFun (shapeCast_self d shapeCasts_S2000x1_S2000x1) _)
  · exact (broadcastTo_1b_ab_apply _ broadcasts_S1x128_S2000x128 p k).trans (congrFun (shapeCast_self b shapeCasts_S1x128_S1x128) _)

/-- Entry (p, q) of the block the second kernel stores. -/
theorem k1_entry (agg own : Vec Ideal S2000x128 .f32) (d : Vec Ideal S2000x1 .f32) (b : Vec Ideal S1x128 .f32) (w : Vec Ideal S128x40 .f32)
    (p : Fin 2000) (q : Fin 40) :
    k1_pay1 (F := Ideal) agg own d b w (ix2 p q)
      = Cert.Gcn.loopProj (R := 2000) agg own (fun r => d (ix2 r (0 : Fin 1))) (fun k => b (ix2 (0 : Fin 1) k)) w p q := by
  rw [k1_pay1_eq]
  unfold Cert.Gcn.loopProj
  refine (Cert.Decoder.Lib.matmul_rows_apply 2000 128 40 _ _ p q).trans ?_
  exact Finset.sum_congr rfl fun k _ => congrArg (· * w (ix2 k q)) (hidden1_apply agg own d b p k)

/-! ## The third kernel: self loop and bias on a block of 2000 score rows, then the row-wise log-softmax -/

/-- The block of scores after the self loop and the bias. -/
def scores2 (agg own : Vec Ideal S2000x40 .f32) (d : Vec Ideal S2000x1 .f32) (b : Vec Ideal S1x40 .f32) : FVec Ideal S2000x40 .f32 :=
  addf (addf (shapeCast S2000x40 agg shapeCasts_S2000x40_S2000x40)
      (mulf (shapeCast S2000x40 own shapeCasts_S2000x40_S2000x40)
        (broadcastTo S2000x40 (shapeCast S2000x1 d shapeCasts_S2000x1_S2000x1) broadcasts_S2000x1_S2000x40)))
    (broadcastTo S2000x40 (shapeCast S1x40 b shapeCasts_S1x40_S1x40) broadcasts_S1x40_S2000x40)

/-- The scores with each row's maximum subtracted. -/
def shifted2 (s : FVec Ideal S2000x40 .f32) : FVec Ideal S2000x40 .f32 :=
  subf s (broadcastTo S2000x40 (shapeCast S2000x1 (multiReduction .maximumf [1] S2000 s 0xFF800000#32 reduces_S2000x40_S2000 (.inl rfl) rfl) shapeCasts_S2000_S2000x1) broadcasts_S2000x1_S2000x40)

theorem k2_pay1_eq (agg own : Vec Ideal S2000x40 .f32) (d : Vec Ideal S2000x1 .f32) (b : Vec Ideal S1x40 .f32) :
    k2_pay1 (F := Ideal) agg own d b
      = subf (shifted2 (scores2 agg own d b))
          (broadcastTo S2000x40 (log (shapeCast S2000x1 (multiReduction .add [1] S2000 (exp (shifted2 (scores2 agg own d b))) 0x00000000#32 reduces_S2000x40_S2000 (.inl rfl) rfl) shapeCasts_S2000_S2000x1)) broadcasts_S2000x1_S2000x40) := rfl

theorem scores2_apply (agg own : Vec Ideal S2000x40 .f32) (d : Vec Ideal S2000x1 .f32) (b : Vec Ideal S1x40 .f32) (p : Fin 2000) (j : Fin 40) :
    scores2 agg own d b (ix2 p j)
      = Cert.Gcn.selfLoop (agg (ix2 p j)) (own (ix2 p j)) (d (ix2 p (0 : Fin 1))) (b (ix2 (0 : Fin 1) j)) := by
  unfold Cert.Gcn.selfLoop
  refine congrArg₂ (· + ·) (congrArg₂ (· + ·) ?_ (congrArg₂ (· * ·) ?_ ?_)) ?_
  · exact congrFun (shapeCast_self agg shapeCasts_S2000x40_S2000x40) _
  · exact congrFun (shapeCast_self own shapeCasts_S2000x40_S2000x40) _
  · exact (Keepdims.broadcastTo_a1_ab_apply _ broadcasts_S2000x1_S2000x40 p j).trans (congrFun (shapeCast_self d shapeCasts_S2000x1_S2000x1) _)
  · exact (broadcastTo_1b_ab_apply _ broadcasts_S1x40_S2000x40 p j).trans (congrFun (shapeCast_self b shapeCasts_S1x40_S1x40) _)

theorem shifted2_apply (s : FVec Ideal S2000x40 .f32) (p : Fin 2000) (j : Fin 40) :
    shifted2 s (ix2 p j) = s (ix2 p j) - Cert.Gcn.rowMax (fun j' => s (ix2 p j')) := by
  refine congrArg (s (ix2 p j) - ·) ?_
  refine (Keepdims.broadcastTo_a1_ab_apply _ broadcasts_S2000x1_S2000x40 p j).trans ?_
  refine (Keepdims.shapeCast_a_a1_apply _ shapeCasts_S2000_S2000x1 p 0).trans ?_
  exact RowReduce.max_axis1_apply s _ reduces_S2000x40_S2000 (.inl rfl) rfl p

/-- Entry (p, q) of the block the third kernel stores: the log-probability q of score row p. -/
theorem k2_entry (agg own : Vec Ideal S2000x40 .f32) (d : Vec Ideal S2000x1 .f32) (b : Vec Ideal S1x40 .f32) (p : Fin 2000) (q : Fin 40) :
    k2_pay1 (F := Ideal) agg own d b (ix2 p q)
      = Cert.Gcn.loopLogSoftmax (R := 2000) agg own (fun r => d (ix2 r (0 : Fin 1))) (fun j => b (ix2 (0 : Fin 1) j)) p q := by
  rw [k2_pay1_eq]
  unfold Cert.Gcn.loopLogSoftmax Cert.Gcn.logSoftmaxRow
  have hs : ∀ j : Fin 40, scores2 agg own d b (ix2 p j)
      = Cert.Gcn.selfLoop (agg (ix2 p j)) (own (ix2 p j)) (d (ix2 p (0 : Fin 1))) (b (ix2 (0 : Fin 1) j)) := scores2_apply agg own d b p
  have hrow : (fun j' => scores2 agg own d b (ix2 p j'))
      = fun j' => Cert.Gcn.selfLoop (agg (ix2 p j')) (own (ix2 p j')) (d (ix2 p (0 : Fin 1))) (b (ix2 (0 : Fin 1) j')) := funext hs
  have hsh : ∀ j : Fin 40, shifted2 (scores2 agg own d b) (ix2 p j)
      = Cert.Gcn.selfLoop (agg (ix2 p j)) (own (ix2 p j)) (d (ix2 p (0 : Fin 1))) (b (ix2 (0 : Fin 1) j))
        - Cert.Gcn.rowMax (fun j' => Cert.Gcn.selfLoop (agg (ix2 p j')) (own (ix2 p j')) (d (ix2 p (0 : Fin 1))) (b (ix2 (0 : Fin 1) j'))) := fun j => by
    rw [shifted2_apply, hs j, hrow]
  refine congrArg₂ (· - ·) (hsh q) ?_
  refine (Keepdims.broadcastTo_a1_ab_apply _ broadcasts_S2000x1_S2000x40 p q).trans ?_
  refine congrArg Ideal.log ?_
  refine (Keepdims.shapeCast_a_a1_apply _ shapeCasts_S2000_S2000x1 p 0).trans ?_
  refine (RowReduce.sum_axis1_apply (exp (shifted2 (scores2 agg own d b))) _ reduces_S2000x40_S2000 (.inl rfl) rfl p).trans ?_
  exact Finset.sum_congr rfl fun j _ => congrArg Ideal.exp (hsh j)

end Cert.KernelIdeal.Rows

end
-- ==== Proof.Region0.lean ====
import proofs.«106843_j16415365005353_1_alg».proof.Proof.Gen.KernelIdeal.Frame
import proofs.«106843_j16415365005353_1_alg».proof.Proof.KernelRows
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # The first region: 50 blocks of 2000 feature rows, normalised and projected

Point t of the grid loads rows 2000·t … 2000·t + 1999 of the feature array, the whole gain and offset rows and the whole
projection matrix, and writes rows 2000·t … 2000·t + 1999 of the output. The normalisation and the projection are row-wise,
so the 50 written blocks are the blocks of ONE function of the whole arrays, and they tile the output. -/

theorem hz : (![0, 0] : Fin 2 → Nat) = fun _ => 0 := funext fun a => by fin_cases a <;> rfl

/-- The printed index maps, decided over the grid of 50 points: the feature window and the output window sit at block
    row t, every other window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The array the region leaves in its output window, as one function of the arrays it finds at entry: row r of the
    feature array normalised with the gain and offset rows, projected on column j of the matrix. -/
def result (c : Dev nD) : S100000x128.Idx → EReal := fun i =>
  Cert.Gcn.normProj (R := 100000) (V c main_arg0 : S100000x512.Idx → EReal)
    (fun k => (V c main_v28 : S1x512.Idx → EReal) (ix2 (0 : Fin 1) k)) (fun k => (V c main_v29 : S1x512.Idx → EReal) (ix2 (0 : Fin 1) k))
    (V c main_arg5 : S512x128.Idx → EReal) (i 0) (i 1)

/-- The feature window's block at point t is rows 2000·t … of the feature array. -/
theorem blk_x (c : Dev nD) (t : Fin cfg0.N) (p : Fin 2000) (k : Fin 512) (r : Fin 100000) (hr : r.val = t.val * 2000 + p.val) :
    (iblk0 V c 0 t : S2000x512.Idx → EReal) (ix2 p k) = (V c main_arg0 : S100000x512.Idx → EReal) (ix2 r k) := by
  obtain ⟨e00, e01, -⟩ := idx_facts t
  unfold iblk0
  rw [View.read_apply]
  show (V c main_arg0 : S100000x512.Idx → EReal) _ = _
  refine congrArg _ (funext fun a => Fin.ext ?_)
  match a with
  | ⟨0, _⟩ => show win0_0.index t (0 : Fin 2) * 2000 + 1 * p.val = r.val; omega
  | ⟨1, _⟩ => show win0_0.index t (1 : Fin 2) * 512 + 1 * k.val = k.val; omega

/-- The gain window's block at every point is the whole gain row. -/
theorem blk_g (c : Dev nD) (t : Fin cfg0.N) (k : Fin 512) :
    (iblk0 V c 1 t : S1x512.Idx → EReal) (ix2 (0 : Fin 1) k) = (V c main_v28 : S1x512.Idx → EReal) (ix2 (0 : Fin 1) k) := by
  obtain ⟨-, -, e10, e11, -⟩ := idx_facts t
  unfold iblk0
  rw [View.read_apply]
  show (V c main_v28 : S1x512.Idx → EReal) _ = _
  refine congrArg _ (funext fun a => Fin.ext ?_)
  match a with
  | ⟨0, _⟩ => show win0_1.index t (0 : Fin 2) * 1 + 1 * 0 = 0; omega
  | ⟨1, _⟩ => show win0_1.index t (1 : Fin 2) * 512 + 1 * k.val = k.val; omega

/-- The offset window's block at every point is the whole offset row. -/
theorem blk_b (c : Dev nD) (t : Fin cfg0.N) (k : Fin 512) :
    (iblk0 V c 2 t : S1x512.Idx → EReal) (ix2 (0 : Fin 1) k) = (V c main_v29 : S1x512.Idx → EReal) (ix2 (0 : Fin 1) k) := by
  obtain ⟨-, -, -, -, e20, e21, -⟩ := idx_facts t
  unfold iblk0
  rw [View.read_apply]
  show (V c main_v29 : S1x512.Idx → EReal) _ = _
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * k.val = k.val; omega

/-- The matrix window's block at every point is the whole projection matrix. -/
theorem blk_w (c : Dev nD) (t : Fin cfg0.N) (k : Fin 512) (q q' : Fin 128) (hq : q'.val = q.val) :
    (iblk0 V c 3 t : S512x128.Idx → EReal) (ix2 k q) = (V c main_arg5 : S512x128.Idx → EReal) (ix2 k q') := by
  obtain ⟨-, -, -, -, -, -, e30, e31, -⟩ := idx_facts t
  unfold iblk0
  rw [View.read_apply]
  show (V c main_arg5 : S512x128.Idx → EReal) _ = _
  refine congrArg _ (funext fun a => Fin.ext ?_)
  match a with
  | ⟨0, _⟩ => show win0_3.index t (0 : Fin 2) * 512 + 1 * k.val = k.val; omega
  | ⟨1, _⟩ => show win0_3.index t (1 : Fin 2) * 128 + 1 * q.val = q'.val; omega

/-- WHAT POINT t WRITES BACK is block t of `result`. -/
theorem flushed_eq (c : Dev nD) (t : Fin cfg0.N) :
    (dat0 V c).flushed 4 t = ((cfg0.win 4).blk t).view.read (Elt Ideal) (result V c) := by
  show (cfg0.win 4).cut (grid0.coords t) ((dat0 V c).after 4 t) = _
  rw [after0_4]
  unfold out0_4
  rw [View.canon_unit_zero hz]
  simp only [View.ld_unit_zero (S := S2000x512) hz, View.ld_unit_zero (S := S1x512) hz, View.ld_unit_zero (S := S512x128) hz]
  obtain ⟨-, -, -, -, -, -, -, -, e40, e41⟩ := idx_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (iblk0 V c 3 t) (ix2 p q)
    = result V c (((cfg0.win 4).blk t).view.emb (ix2 p q))
  refine (Rows.k0_entry (iblk0 V c 0 t) (iblk0 V c 1 t) (iblk0 V c 2 t) (iblk0 V c 3 t) p q).trans ?_
  unfold result
  refine Cert.Gcn.normProj_congr _ _ _ _ _ _ _ _ _ _ _ _ (fun k => blk_x V c t p k _ ?_) (funext fun k => blk_g V c t k)
    (funext fun k => blk_b V c t k) (fun k => blk_w V c t k q _ ?_)
  · show win0_4.index t (0 : Fin 2) * 2000 + 1 * p.val = t.val * 2000 + p.val
    omega
  · show win0_4.index t (1 : Fin 2) * 128 + 1 * q.val = q.val
    omega

/-- An index of the output array is in point t's block iff each coordinate is in the block's range on its axis. -/
theorem mem_blk (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v32).slice (win0_4.rect t)).set ↔ _
  rw [View.set_slice_whole, Rect.mem_set_unit]
  exact Iff.rfl

/-- Every index of the output array lies in the block of the point its row falls in: row r in block r / 2000. -/
theorem cover (i : S100000x128.Idx) : ∃ t : Fin cfg0.N, (cfg0.win 4).flush t = true ∧ i ∈ ((cfg0.win 4).blk t).view.set := by
  have hN : grid0.N = 50 := N_0
  have h0 : (i 0).val < 100000 := (i 0).isLt
  have h1 : (i 1).val < 128 := (i 1).isLt
  have hlt : (i 0).val / 2000 < cfg0.N := by show (i 0).val / 2000 < grid0.N; rw [hN]; omega
  obtain ⟨-, -, -, -, -, -, -, -, e40, e41⟩ := idx_facts ⟨(i 0).val / 2000, hlt⟩
  refine ⟨⟨(i 0).val / 2000, hlt⟩, flush0_4 _, ?_⟩
  rw [mem_blk]
  intro a
  match a with
  | ⟨0, _⟩ =>
    show win0_4.index ⟨(i 0).val / 2000, hlt⟩ (0 : Fin 2) * 2000 ≤ (i 0).val ∧ (i 0).val < win0_4.index ⟨(i 0).val / 2000, hlt⟩ (0 : Fin 2) * 2000 + 2000
    rw [e40]
    show (i 0).val / 2000 * 2000 ≤ (i 0).val ∧ (i 0).val < (i 0).val / 2000 * 2000 + 2000
    omega
  | ⟨1, _⟩ =>
    show win0_4.index ⟨(i 0).val / 2000, hlt⟩ (1 : Fin 2) * 128 ≤ (i 1).val ∧ (i 1).val < win0_4.index ⟨(i 0).val / 2000, hlt⟩ (1 : Fin 2) * 128 + 128
    rw [e41]
    omega

/-- THE OUTPUT ARRAY after the region: `result` of the arrays found at entry. -/
theorem final (c : Dev nD) : (dat0 V c).arrAt 4 cfg0.N = result V c :=
  (dat0 V c).arrAt_eq_of_cover 4 (result V c) (fun t _ => flushed_eq V c t) (cover)

/-- The same, through the array-level function. -/
theorem result_eq (c : Dev nD) : result V c = Cert.Gcn.normProjArr (R := 100000) (V c main_arg0 : S100000x512.Idx → EReal)
    (V c main_v28 : S1x512.Idx → EReal) (V c main_v29 : S1x512.Idx → EReal) (V c main_arg5 : S512x128.Idx → EReal) := rfl

end Cert.KernelIdeal.Region0

end
-- ==== Proof.Region1.lean ====
import proofs.«106843_j16415365005353_1_alg».proof.Proof.Gen.KernelIdeal.Frame
import proofs.«106843_j16415365005353_1_alg».proof.Proof.KernelRows
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # The second region: 50 blocks of 2000 hidden rows, self loop, bias and the second projection

Point t loads rows 2000·t … of the aggregate, of the first projection's output and of the column of squared inverse root
degrees, the whole bias row and the whole 128 × 40 matrix, and writes rows 2000·t … of the output. The arithmetic is
row-wise, so the written blocks are the blocks of one function of the whole arrays and tile the output. -/

theorem hz : (![0, 0] : Fin 2 → Nat) = fun _ => 0 := funext fun a => by fin_cases a <;> rfl

/-- The printed index maps, decided over the grid of 50 points: the three row-indexed input windows and the output window
    sit at block row t, the bias and the matrix at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array the region leaves in its output window, as one function of the arrays it finds at entry. -/
def result (c : Dev nD) : S100000x40.Idx → EReal := fun i =>
  Cert.Gcn.loopProj (R := 100000) (V c main_v45 : S100000x128.Idx → EReal) (V c main_v32 : S100000x128.Idx → EReal)
    (fun r => (V c main_v27 : S100000x1.Idx → EReal) (ix2 r (0 : Fin 1))) (fun k => (V c main_v30 : S1x128.Idx → EReal) (ix2 (0 : Fin 1) k))
    (V c main_arg7 : S128x40.Idx → EReal) (i 0) (i 1)

/-- The aggregate window's block at point t is rows 2000·t … of the aggregate. -/
theorem blk_agg (c : Dev nD) (t : Fin cfg1.N) (p : Fin 2000) (k : Fin 128) (r : Fin 100000) (hr : r.val = t.val * 2000 + p.val) :
    (iblk1 V c 0 t : S2000x128.Idx → EReal) (ix2 p k) = (V c main_v45 : S100000x128.Idx → EReal) (ix2 r k) := by
  have e := idx_facts t
  unfold iblk1
  rw [View.read_apply]
  show (V c main_v45 : S100000x128.Idx → EReal) _ = _
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega
/-- The second window's block at point t is rows 2000·t … of the first projection's output. -/
theorem blk_own (c : Dev nD) (t : Fin cfg1.N) (p : Fin 2000) (k : Fin 128) (r : Fin 100000) (hr : r.val = t.val * 2000 + p.val) :
    (iblk1 V c 1 t : S2000x128.Idx → EReal) (ix2 p k) = (V c main_v32 : S100000x128.Idx → EReal) (ix2 r k) := by
  have e := idx_facts t
  unfold iblk1
  rw [View.read_apply]
  show (V c main_v32 : S100000x128.Idx → EReal) _ = _
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega
/-- The degree window's block at point t is rows 2000·t … of the column of squared inverse root degrees. -/
theorem blk_d (c : Dev nD) (t : Fin cfg1.N) (p : Fin 2000) (r : Fin 100000) (hr : r.val = t.val * 2000 + p.val) :
    (iblk1 V c 2 t : S2000x1.Idx → EReal) (ix2 p (0 : Fin 1)) = (V c main_v27 : S100000x1.Idx → EReal) (ix2 r (0 : Fin 1)) := by
  have e := idx_facts t
  unfold iblk1
  rw [View.read_apply]
  show (V c main_v27 : S100000x1.Idx → EReal) _ = _
  refine congrArg _ (funext fun a => Fin.ext ?_)
  match a with
  | ⟨0, _⟩ => show win1_2.index t (0 : Fin 2) * 2000 + 1 * p.val = r.val; omega
  | ⟨1, _⟩ => show win1_2.index t (1 : Fin 2) * 1 + 1 * 0 = 0; omega
/-- The bias window's block at every point is the whole bias row. -/
theorem blk_bias (c : Dev nD) (t : Fin cfg1.N) (k : Fin 128) :
    (iblk1 V c 3 t : S1x128.Idx → EReal) (ix2 (0 : Fin 1) k) = (V c main_v30 : S1x128.Idx → EReal) (ix2 (0 : Fin 1) k) := by
  have e := idx_facts t
  unfold iblk1
  rw [View.read_apply]
  show (V c main_v30 : S1x128.Idx → EReal) _ = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega
/-- The matrix window's block at every point is the whole 128 × 40 matrix. -/
theorem blk_w (c : Dev nD) (t : Fin cfg1.N) (k : Fin 128) (q q' : Fin 40) (hq : q'.val = q.val) :
    (iblk1 V c 4 t : S128x40.Idx → EReal) (ix2 k q) = (V c main_arg7 : S128x40.Idx → EReal) (ix2 k q') := by
  have e := idx_facts t
  unfold iblk1
  rw [View.read_apply]
  show (V c main_arg7 : S128x40.Idx → EReal) _ = _
  refine congrArg _ (funext fun a => Fin.ext ?_)
  match a with
  | ⟨0, _⟩ => show win1_4.index t (0 : Fin 2) * 128 + 1 * k.val = k.val; omega
  | ⟨1, _⟩ => show win1_4.index t (1 : Fin 2) * 40 + 1 * q.val = q'.val; omega

/-- WHAT POINT t WRITES BACK is block t of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S1x128) hz, View.ld_unit_zero (S := S128x40) hz]
  have e := idx_facts t
  funext j
  obtain ⟨p, q, rfl⟩ : ∃ (p : Fin 2000) (q : Fin 40), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = result V c (((cfg1.win 5).blk t).view.emb (ix2 p q))
  refine (Rows.k1_entry (iblk1 V c 0 t) (iblk1 V c 1 t) (iblk1 V c 2 t) (iblk1 V c 3 t) (iblk1 V c 4 t) p q).trans ?_
  unfold result
  have hrow : ((((cfg1.win 5).blk t).view.emb (ix2 p q)) 0).val = t.val * 2000 + p.val := by
    show win1_5.index t (0 : Fin 2) * 2000 + 1 * p.val = t.val * 2000 + p.val
    omega
  have hcol : ((((cfg1.win 5).blk t).view.emb (ix2 p q)) 1).val = q.val := by
    show win1_5.index t (1 : Fin 2) * 40 + 1 * q.val = q.val
    omega
  exact Cert.Gcn.loopProj_congr _ _ _ _ _ _ _ _ _ _ _ _ _ _ (fun k => blk_agg V c t p k _ hrow) (fun k => blk_own V c t p k _ hrow)
    (blk_d V c t p _ hrow) (funext fun k => blk_bias V c t k) (fun k => blk_w V c t k q _ hcol)

/-- An index of the output array is in point t's block iff each coordinate is in the block's range on its axis. -/
theorem mem_blk (t : Fin cfg1.N) (i : S100000x40.Idx) :
    i ∈ ((cfg1.win 5).blk t).view.set ↔ ∀ a : Fin 2, win1_5.index t a * S2000x40.size a ≤ (i a).val ∧ (i a).val < win1_5.index t a * S2000x40.size a + S2000x40.size a := by
  show i ∈ ((View.whole main_v46).slice (win1_5.rect t)).set ↔ _
  rw [View.set_slice_whole, Rect.mem_set_unit]
  exact Iff.rfl

/-- Every index of the output array lies in the block of the point its row falls in: row r in block r / 2000. -/
theorem cover (i : S100000x40.Idx) : ∃ t : Fin cfg1.N, (cfg1.win 5).flush t = true ∧ i ∈ ((cfg1.win 5).blk t).view.set := by
  have hN : grid1.N = 50 := N_1
  have h0 : (i 0).val < 100000 := (i 0).isLt
  have h1 : (i 1).val < 40 := (i 1).isLt
  have hlt : (i 0).val / 2000 < cfg1.N := by show (i 0).val / 2000 < grid1.N; rw [hN]; omega
  have e := idx_facts ⟨(i 0).val / 2000, hlt⟩
  refine ⟨⟨(i 0).val / 2000, hlt⟩, flush1_5 _, ?_⟩
  rw [mem_blk]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e.2.2.2.2.2.2.2.2.2.2.1]
    show (i 0).val / 2000 * 2000 ≤ (i 0).val ∧ (i 0).val < (i 0).val / 2000 * 2000 + 2000
    omega
  | ⟨1, _⟩ =>
    show win1_5.index ⟨(i 0).val / 2000, hlt⟩ (1 : Fin 2) * 40 ≤ (i 1).val ∧ (i 1).val < win1_5.index ⟨(i 0).val / 2000, hlt⟩ (1 : Fin 2) * 40 + 40
    rw [e.2.2.2.2.2.2.2.2.2.2.2]
    omega

/-- THE OUTPUT ARRAY after the region: `result` of the arrays found at entry. -/
theorem final (c : Dev nD) : (dat1 V c).arrAt 5 cfg1.N = result V c :=
  (dat1 V c).arrAt_eq_of_cover 5 (result V c) (fun t _ => flushed_eq V c t) (cover)

/-- The same, through the array-level function. -/
theorem result_eq (c : Dev nD) : result V c = Cert.Gcn.loopProjArr (R := 100000) (V c main_v45 : S100000x128.Idx → EReal)
    (V c main_v32 : S100000x128.Idx → EReal) (V c main_v27 : S100000x1.Idx → EReal) (V c main_v30 : S1x128.Idx → EReal)
    (V c main_arg7 : S128x40.Idx → EReal) := rfl

end Cert.KernelIdeal.Region1

end
-- ==== Proof.Region2.lean ====
import proofs.«106843_j16415365005353_1_alg».proof.Proof.Gen.KernelIdeal.Frame
import proofs.«106843_j16415365005353_1_alg».proof.Proof.KernelRows
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # The third region: 50 blocks of 2000 score rows, self loop, bias and the row-wise log-softmax

Point t loads rows 2000·t … of the second aggregate, of the second projection's output and of the column of squared
inverse root degrees and the whole bias row, and writes rows 2000·t … of the output. A row's log-probabilities depend on
that row only, so the written blocks are the blocks of one function of the whole arrays and tile the output. -/

theorem hz : (![0, 0] : Fin 2 → Nat) = fun _ => 0 := funext fun a => by fin_cases a <;> rfl

/-- The printed index maps, decided over the grid of 50 points: the three row-indexed input windows and the output window
    sit at block row t, the bias at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The array the region leaves in its output window, as one function of the arrays it finds at entry. -/
def result (c : Dev nD) : S100000x40.Idx → EReal := fun i =>
  Cert.Gcn.loopLogSoftmax (R := 100000) (V c main_v59 : S100000x40.Idx → EReal) (V c main_v46 : S100000x40.Idx → EReal)
    (fun r => (V c main_v27 : S100000x1.Idx → EReal) (ix2 r (0 : Fin 1))) (fun j => (V c main_v31 : S1x40.Idx → EReal) (ix2 (0 : Fin 1) j))
    (i 0) (i 1)

/-- The aggregate window's block at point t is rows 2000·t … of the second aggregate. -/
theorem blk_agg (c : Dev nD) (t : Fin cfg2.N) (p : Fin 2000) (k : Fin 40) (r : Fin 100000) (hr : r.val = t.val * 2000 + p.val) :
    (iblk2 V c 0 t : S2000x40.Idx → EReal) (ix2 p k) = (V c main_v59 : S100000x40.Idx → EReal) (ix2 r k) := by
  have e := idx_facts t
  unfold iblk2
  rw [View.read_apply]
  show (V c main_v59 : S100000x40.Idx → EReal) _ = _
  refine congrArg _ (funext fun a => Fin.ext ?_)
  match a with
  | ⟨0, _⟩ => show win2_0.index t (0 : Fin 2) * 2000 + 1 * p.val = r.val; omega
  | ⟨1, _⟩ => show win2_0.index t (1 : Fin 2) * 40 + 1 * k.val = k.val; omega
/-- The second window's block at point t is rows 2000·t … of the second projection's output. -/
theorem blk_own (c : Dev nD) (t : Fin cfg2.N) (p : Fin 2000) (k : Fin 40) (r : Fin 100000) (hr : r.val = t.val * 2000 + p.val) :
    (iblk2 V c 1 t : S2000x40.Idx → EReal) (ix2 p k) = (V c main_v46 : S100000x40.Idx → EReal) (ix2 r k) := by
  have e := idx_facts t
  unfold iblk2
  rw [View.read_apply]
  show (V c main_v46 : S100000x40.Idx → EReal) _ = _
  refine congrArg _ (funext fun a => Fin.ext ?_)
  match a with
  | ⟨0, _⟩ => show win2_1.index t (0 : Fin 2) * 2000 + 1 * p.val = r.val; omega
  | ⟨1, _⟩ => show win2_1.index t (1 : Fin 2) * 40 + 1 * k.val = k.val; omega
/-- The degree window's block at point t is rows 2000·t … of the column of squared inverse root degrees. -/
theorem blk_d (c : Dev nD) (t : Fin cfg2.N) (p : Fin 2000) (r : Fin 100000) (hr : r.val = t.val * 2000 + p.val) :
    (iblk2 V c 2 t : S2000x1.Idx → EReal) (ix2 p (0 : Fin 1)) = (V c main_v27 : S100000x1.Idx → EReal) (ix2 r (0 : Fin 1)) := by
  have e := idx_facts t
  unfold iblk2
  rw [View.read_apply]
  show (V c main_v27 : S100000x1.Idx → EReal) _ = _
  refine congrArg _ (funext fun a => Fin.ext ?_)
  match a with
  | ⟨0, _⟩ => show win2_2.index t (0 : Fin 2) * 2000 + 1 * p.val = r.val; omega
  | ⟨1, _⟩ => show win2_2.index t (1 : Fin 2) * 1 + 1 * 0 = 0; omega
/-- The bias window's block at every point is the whole bias row. -/
theorem blk_bias (c : Dev nD) (t : Fin cfg2.N) (k : Fin 40) :
    (iblk2 V c 3 t : S1x40.Idx → EReal) (ix2 (0 : Fin 1) k) = (V c main_v31 : S1x40.Idx → EReal) (ix2 (0 : Fin 1) k) := by
  have e := idx_facts t
  unfold iblk2
  rw [View.read_apply]
  show (V c main_v31 : S1x40.Idx → EReal) _ = _
  refine congrArg _ (funext fun a => Fin.ext ?_)
  match a with
  | ⟨0, _⟩ => show win2_3.index t (0 : Fin 2) * 1 + 1 * 0 = 0; omega
  | ⟨1, _⟩ => show win2_3.index t (1 : Fin 2) * 40 + 1 * k.val = k.val; omega
/-- WHAT POINT t WRITES BACK is block t of `result`. -/
theorem flushed_eq (c : Dev nD) (t : Fin cfg2.N) :
    (dat2 V c).flushed 4 t = ((cfg2.win 4).blk t).view.read (Elt Ideal) (result V c) := by
  show (cfg2.win 4).cut (grid2.coords t) ((dat2 V c).after 4 t) = _
  rw [after2_4]
  unfold out2_4
  rw [View.canon_unit_zero hz]
  simp only [View.ld_unit_zero (S := S2000x40) hz, View.ld_unit_zero (S := S2000x1) hz, View.ld_unit_zero (S := S1x40) hz]
  have e := idx_facts t
  funext j
  obtain ⟨p, q, rfl⟩ : ∃ (p : Fin 2000) (q : Fin 40), j = ix2 p q := ⟨j 0, j 1, eq_ix2 j⟩
  show k2_pay1 (F := Ideal) (iblk2 V c 0 t) (iblk2 V c 1 t) (iblk2 V c 2 t) (iblk2 V c 3 t) (ix2 p q)
    = result V c (((cfg2.win 4).blk t).view.emb (ix2 p q))
  refine (Rows.k2_entry (iblk2 V c 0 t) (iblk2 V c 1 t) (iblk2 V c 2 t) (iblk2 V c 3 t) p q).trans ?_
  unfold result
  have hrow : ((((cfg2.win 4).blk t).view.emb (ix2 p q)) 0).val = t.val * 2000 + p.val := by
    show win2_4.index t (0 : Fin 2) * 2000 + 1 * p.val = t.val * 2000 + p.val
    omega
  have hcol : q = (((cfg2.win 4).blk t).view.emb (ix2 p q)) 1 := Fin.ext (by
    show q.val = win2_4.index t (1 : Fin 2) * 40 + 1 * q.val
    omega)
  exact Cert.Gcn.loopLogSoftmax_congr _ _ _ _ _ _ _ _ _ _ _ _ (fun k => blk_agg V c t p k _ hrow) (fun k => blk_own V c t p k _ hrow)
    (blk_d V c t p _ hrow) (funext fun k => blk_bias V c t k) hcol

/-- An index of the output array is in point t's block iff each coordinate is in the block's range on its axis. -/
theorem mem_blk (t : Fin cfg2.N) (i : S100000x40.Idx) :
    i ∈ ((cfg2.win 4).blk t).view.set ↔ ∀ a : Fin 2, win2_4.index t a * S2000x40.size a ≤ (i a).val ∧ (i a).val < win2_4.index t a * S2000x40.size a + S2000x40.size a := by
  show i ∈ ((View.whole main_v60).slice (win2_4.rect t)).set ↔ _
  rw [View.set_slice_whole, Rect.mem_set_unit]
  exact Iff.rfl

/-- Every index of the output array lies in the block of the point its row falls in: row r in block r / 2000. -/
theorem cover (i : S100000x40.Idx) : ∃ t : Fin cfg2.N, (cfg2.win 4).flush t = true ∧ i ∈ ((cfg2.win 4).blk t).view.set := by
  have hN : grid2.N = 50 := N_2
  have h0 : (i 0).val < 100000 := (i 0).isLt
  have h1 : (i 1).val < 40 := (i 1).isLt
  have hlt : (i 0).val / 2000 < cfg2.N := by show (i 0).val / 2000 < grid2.N; rw [hN]; omega
  have e := idx_facts ⟨(i 0).val / 2000, hlt⟩
  refine ⟨⟨(i 0).val / 2000, hlt⟩, flush2_4 _, ?_⟩
  rw [mem_blk]
  intro a
  match a with
  | ⟨0, _⟩ =>
    show win2_4.index ⟨(i 0).val / 2000, hlt⟩ (0 : Fin 2) * 2000 ≤ (i 0).val ∧ (i 0).val < win2_4.index ⟨(i 0).val / 2000, hlt⟩ (0 : Fin 2) * 2000 + 2000
    rw [e.2.2.2.2.2.2.2.2.1]
    show (i 0).val / 2000 * 2000 ≤ (i 0).val ∧ (i 0).val < (i 0).val / 2000 * 2000 + 2000
    omega
  | ⟨1, _⟩ =>
    show win2_4.index ⟨(i 0).val / 2000, hlt⟩ (1 : Fin 2) * 40 ≤ (i 1).val ∧ (i 1).val < win2_4.index ⟨(i 0).val / 2000, hlt⟩ (1 : Fin 2) * 40 + 40
    rw [e.2.2.2.2.2.2.2.2.2]
    omega

/-- THE OUTPUT ARRAY after the region: `result` of the arrays found at entry. -/
theorem final (c : Dev nD) : (dat2 V c).arrAt 4 cfg2.N = result V c :=
  (dat2 V c).arrAt_eq_of_cover 4 (result V c) (fun t _ => flushed_eq V c t) (cover)

/-- The same, through the array-level function. -/
theorem result_eq (c : Dev nD) : result V c = Cert.Gcn.loopLogSoftmaxArr (R := 100000) (V c main_v59 : S100000x40.Idx → EReal)
    (V c main_v46 : S100000x40.Idx → EReal) (V c main_v27 : S100000x1.Idx → EReal) (V c main_v31 : S1x40.Idx → EReal) := rfl

end Cert.KernelIdeal.Region2

end
-- ==== Proof.KernelValue.lean ====
/-
  The result array of the tiled program as ONE function of its nine arguments.

  The three regions' closed forms are chained through the host stretches between them: the first region's output is the
  normalised features projected by the first matrix; the edges gather its rows, scale them by the normalised edge weights
  and sum them into their destination nodes; the second region adds the self loop and the bias and projects by the second
  matrix; the same aggregation at width 40 follows; the third region adds the self loop and the bias and takes the
  row-wise log-softmax.
-/
import proofs.«106843_j16415365005353_1_alg».proof.Proof.KernelFold
import proofs.«106843_j16415365005353_1_alg».proof.Proof.Region0
import proofs.«106843_j16415365005353_1_alg».proof.Proof.Region1
import proofs.«106843_j16415365005353_1_alg».proof.Proof.Region2

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.Fold

/-- The first layer's dense part: the features normalised (gain `x3`, offset `x4`, each recast as one row) and
    projected by `x5`. -/
def hidden (x0 : FVec Ideal S100000x512 .f32) (x3 x4 : FVec Ideal S512 .f32) (x5 : FVec Ideal S512x128 .f32) : FVec Ideal S100000x128 .f32 :=
  Cert.Gcn.normProjArr (R := 100000) x0 (shapeCast S1x512 x3 shapeCasts_S512_S1x512) (shapeCast S1x512 x4 shapeCasts_S512_S1x512) x5

/-- The second layer's dense part: the aggregated first layer plus self loop and bias `x6`, projected by `x7`. -/
def scores (x0 : FVec Ideal S100000x512 .f32) (x1 : IVec S2x1600000 32) (x2 : FVec Ideal S1600000 .f32) (x3 x4 : FVec Ideal S512 .f32)
    (x5 : FVec Ideal S512x128 .f32) (x6 : FVec Ideal S128 .f32) (x7 : FVec Ideal S128x40 .f32) : FVec Ideal S100000x40 .f32 :=
  Cert.Gcn.loopProjArr (R := 100000) (aggregate128 (hidden x0 x3 x4 x5) x1 x2) (hidden x0 x3 x4 x5) (dinvSqCol x1 x2)
    (shapeCast S1x128 x6 shapeCasts_S128_S1x128) x7

/-- The program's result: the aggregated scores plus self loop and bias `x8`, as row-wise log-probabilities. -/
def output (x0 : FVec Ideal S100000x512 .f32) (x1 : IVec S2x1600000 32) (x2 : FVec Ideal S1600000 .f32) (x3 x4 : FVec Ideal S512 .f32)
    (x5 : FVec Ideal S512x128 .f32) (x6 : FVec Ideal S128 .f32) (x7 : FVec Ideal S128x40 .f32) (x8 : FVec Ideal S40 .f32) : FVec Ideal S100000x40 .f32 :=
  Cert.Gcn.loopLogSoftmaxArr (R := 100000) (aggregate40 (scores x0 x1 x2 x3 x4 x5 x6 x7) x1 x2) (scores x0 x1 x2 x3 x4 x5 x6 x7) (dinvSqCol x1 x2)
    (shapeCast S1x40 x8 shapeCasts_S40_S1x40)

variable (m : (ℓ : Loc nD τ sig) → Buf (Elt Ideal) ℓ) (ρ : Dev nD → PrngReg)

/-- After the first region its output array holds `hidden` of the arguments. -/
theorem after_region0 (c : Dev nD) : (W2 m ρ c (Proc.devRef .tc main_v32) : FVec Ideal S100000x128 .f32)
    = hidden (m ((c : Thread nD τ).loc main_arg0)) (m ((c : Thread nD τ).loc main_arg3)) (m ((c : Thread nD τ).loc main_arg4)) (m ((c : Thread nD τ).loc main_arg5)) := by
  rw [W2_main_v32, Region0.final, Region0.result_eq, V1_main_arg0, V1_main_arg5, V1_main_v28, V1_main_v29]
  rfl

/-- After the second region its output array holds `scores` of the arguments. -/
theorem after_region1 (c : Dev nD) : (W4 m ρ c (Proc.devRef .tc main_v46) : FVec Ideal S100000x40 .f32)
    = scores (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  rw [W4_main_v46, Region1.final, Region1.result_eq, V3_main_v45, V3_main_v32, V3_main_v27, V3_main_v30, V3_main_arg7, after_region0]
  rfl

/-- After the third region the result array holds `output` of the arguments. -/
theorem after_region2 (c : Dev nD) : (W6 m ρ c (Proc.devRef .tc main_v60) : FVec Ideal S100000x40 .f32)
    = output (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) := by
  rw [W6_main_v60, Region2.final, Region2.result_eq, V5_main_v59, V5_main_v46, V5_main_v27, V5_main_v31, after_region1]
  rfl

end Cert.KernelIdeal.Value

end
-- ==== Proof.RefFold.lean ====
/-
  The reference program's result buffer after its 154 host operations is its last stage, `val_main_v116` of the arguments.

  The operations are read in six consecutive runs, cut after the first matrix product, the first aggregation, the second
  matrix product, the second aggregation, the last self loop and the end. Each run's results are stated from what the run reads — the earlier
  runs' results and the arguments — so that no equation between folded operations ever spans more than one run; buffers a run
  does not write keep their contents. The last run is a called function's operations: each moves its operands from the buffer's
  own spelling of its type to the value's type and its result back, and such a move there and back cancels without the two
  spellings ever being compared. The six runs then compose.
-/
import proofs.«106843_j16415365005353_1_alg».proof.Proof.RunP
import proofs.«106843_j16415365005353_1_alg».proof.Proof.ReadP
import Idealize.ShloMosaic.Lib.Pipeline.Frame

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## What each run does not write -/

theorem keepA_arg2 (U : Valuation τ sig (Elt F)) : after (opsA (F := F)) U (Proc.devRef .tc main_arg2) = U (Proc.devRef .tc main_arg2) := by
  unfold opsA
  after_results_simp
theorem keepA_arg6 (U : Valuation τ sig (Elt F)) : after (opsA (F := F)) U (Proc.devRef .tc main_arg6) = U (Proc.devRef .tc main_arg6) := by
  unfold opsA
  after_results_simp
theorem keepA_arg7 (U : Valuation τ sig (Elt F)) : after (opsA (F := F)) U (Proc.devRef .tc main_arg7) = U (Proc.devRef .tc main_arg7) := by
  unfold opsA
  after_results_simp
theorem keepA_arg8 (U : Valuation τ sig (Elt F)) : after (opsA (F := F)) U (Proc.devRef .tc main_arg8) = U (Proc.devRef .tc main_arg8) := by
  unfold opsA
  after_results_simp
theorem keepB_v28 (U : Valuation τ sig (Elt F)) : after (opsB (F := F)) U (Proc.devRef .tc main_v28) = U (Proc.devRef .tc main_v28) := by
  unfold opsB
  after_results_simp
theorem keepB_v1 (U : Valuation τ sig (Elt F)) : after (opsB (F := F)) U (Proc.devRef .tc main_v1) = U (Proc.devRef .tc main_v1) := by
  unfold opsB
  after_results_simp
theorem keepB_v3 (U : Valuation τ sig (Elt F)) : after (opsB (F := F)) U (Proc.devRef .tc main_v3) = U (Proc.devRef .tc main_v3) := by
  unfold opsB
  after_results_simp
theorem keepB_arg2 (U : Valuation τ sig (Elt F)) : after (opsB (F := F)) U (Proc.devRef .tc main_arg2) = U (Proc.devRef .tc main_arg2) := by
  unfold opsB
  after_results_simp
theorem keepB_arg6 (U : Valuation τ sig (Elt F)) : after (opsB (F := F)) U (Proc.devRef .tc main_arg6) = U (Proc.devRef .tc main_arg6) := by
  unfold opsB
  after_results_simp
theorem keepB_arg7 (U : Valuation τ sig (Elt F)) : after (opsB (F := F)) U (Proc.devRef .tc main_arg7) = U (Proc.devRef .tc main_arg7) := by
  unfold opsB
  after_results_simp
theorem keepB_arg8 (U : Valuation τ sig (Elt F)) : after (opsB (F := F)) U (Proc.devRef .tc main_arg8) = U (Proc.devRef .tc main_arg8) := by
  unfold opsB
  after_results_simp
theorem keepC_v1 (U : Valuation τ sig (Elt F)) : after (opsC (F := F)) U (Proc.devRef .tc main_v1) = U (Proc.devRef .tc main_v1) := by
  unfold opsC
  after_results_simp
theorem keepC_v3 (U : Valuation τ sig (Elt F)) : after (opsC (F := F)) U (Proc.devRef .tc main_v3) = U (Proc.devRef .tc main_v3) := by
  unfold opsC
  after_results_simp
theorem keepC_arg2 (U : Valuation τ sig (Elt F)) : after (opsC (F := F)) U (Proc.devRef .tc main_arg2) = U (Proc.devRef .tc main_arg2) := by
  unfold opsC
  after_results_simp
theorem keepC_arg8 (U : Valuation τ sig (Elt F)) : after (opsC (F := F)) U (Proc.devRef .tc main_arg8) = U (Proc.devRef .tc main_arg8) := by
  unfold opsC
  after_results_simp
theorem keepD_v72 (U : Valuation τ sig (Elt F)) : after (opsD (F := F)) U (Proc.devRef .tc main_v72) = U (Proc.devRef .tc main_v72) := by
  unfold opsD
  after_results_simp
theorem keepD_arg8 (U : Valuation τ sig (Elt F)) : after (opsD (F := F)) U (Proc.devRef .tc main_arg8) = U (Proc.devRef .tc main_arg8) := by
  unfold opsD
  after_results_simp

/-! ## What each run computes -/

/-- The first run leaves the edges' source nodes … -/
theorem stageA_v1 (W : Valuation τ sig (Elt F)) :
    (after (opsA (F := F)) W (Proc.devRef .tc main_v1) : (⟨S1600000, .i32⟩ : BufTy).Contents (Elt F)) = val_main_v1 (F := F) (W (Proc.devRef .tc main_arg1)) := by
  unfold opsA
  after_results_simp
  rfl
/-- … their destination nodes … -/
theorem stageA_v3 (W : Valuation τ sig (Elt F)) :
    (after (opsA (F := F)) W (Proc.devRef .tc main_v3) : (⟨S1600000, .i32⟩ : BufTy).Contents (Elt F)) = val_main_v3 (F := F) (W (Proc.devRef .tc main_arg1)) := by
  unfold opsA
  after_results_simp
  rfl
set_option maxHeartbeats 4000000 in
/-- … and the first matrix product. -/
theorem stageA_v28 (W : Valuation τ sig (Elt F)) :
    (after (opsA (F := F)) W (Proc.devRef .tc main_v28) : (⟨S100000x128, .f32⟩ : BufTy).Contents (Elt F))
      = val_main_v28 (F := F) (W (Proc.devRef .tc main_arg0)) (W (Proc.devRef .tc main_arg3)) (W (Proc.devRef .tc main_arg4)) (W (Proc.devRef .tc main_arg5)) := by
  unfold opsA
  after_results_simp
  rfl

set_option maxHeartbeats 4000000 in
/-- The second run's inverse square root degrees, from the destination nodes and the edge weights. -/
theorem stageB_v34 (U : Valuation τ sig (Elt F)) (x1 : (⟨S2x1600000, .i32⟩ : BufTy).Contents (Elt F)) (x2 : (⟨S1600000, .f32⟩ : BufTy).Contents (Elt F))
    (h_v3 : (U (Proc.devRef .tc main_v3) : (⟨S1600000, .i32⟩ : BufTy).Contents (Elt F)) = val_main_v3 (F := F) x1)
    (h_arg2 : (U (Proc.devRef .tc main_arg2) : (⟨S1600000, .f32⟩ : BufTy).Contents (Elt F)) = x2) :
    (after (opsB (F := F)) U (Proc.devRef .tc main_v34) : (⟨S100000, .f32⟩ : BufTy).Contents (Elt F)) = val_main_v34 (F := F) x1 x2 := by
  unfold opsB
  after_results_simp
  rw [h_v3, h_arg2]
  rfl
set_option maxHeartbeats 4000000 in
/-- The second run's aggregation of the first matrix product over the edges. -/
theorem stageB_v63 (U : Valuation τ sig (Elt F)) (x0 : (⟨S100000x512, .f32⟩ : BufTy).Contents (Elt F)) (x1 : (⟨S2x1600000, .i32⟩ : BufTy).Contents (Elt F)) (x2 : (⟨S1600000, .f32⟩ : BufTy).Contents (Elt F)) (x3 : (⟨S512, .f32⟩ : BufTy).Contents (Elt F)) (x4 : (⟨S512, .f32⟩ : BufTy).Contents (Elt F)) (x5 : (⟨S512x128, .f32⟩ : BufTy).Contents (Elt F))
    (h_v28 : (U (Proc.devRef .tc main_v28) : (⟨S100000x128, .f32⟩ : BufTy).Contents (Elt F)) = val_main_v28 (F := F) x0 x3 x4 x5)
    (h_v1 : (U (Proc.devRef .tc main_v1) : (⟨S1600000, .i32⟩ : BufTy).Contents (Elt F)) = val_main_v1 (F := F) x1)
    (h_v3 : (U (Proc.devRef .tc main_v3) : (⟨S1600000, .i32⟩ : BufTy).Contents (Elt F)) = val_main_v3 (F := F) x1)
    (h_arg2 : (U (Proc.devRef .tc main_arg2) : (⟨S1600000, .f32⟩ : BufTy).Contents (Elt F)) = x2) :
    (after (opsB (F := F)) U (Proc.devRef .tc main_v63) : (⟨S100000x128, .f32⟩ : BufTy).Contents (Elt F)) = val_main_v63 (F := F) x0 x1 x2 x3 x4 x5 := by
  unfold opsB
  after_results_simp
  rw [h_v28, h_v1, h_v3, h_arg2]
  rfl
set_option maxHeartbeats 4000000 in
/-- The third run's matrix product, from the aggregate, the first matrix product, the inverse square root degrees, the bias and the matrix. -/
theorem stageC_v72 (U : Valuation τ sig (Elt F)) (x0 : (⟨S100000x512, .f32⟩ : BufTy).Contents (Elt F)) (x1 : (⟨S2x1600000, .i32⟩ : BufTy).Contents (Elt F)) (x2 : (⟨S1600000, .f32⟩ : BufTy).Contents (Elt F)) (x3 : (⟨S512, .f32⟩ : BufTy).Contents (Elt F)) (x4 : (⟨S512, .f32⟩ : BufTy).Contents (Elt F)) (x5 : (⟨S512x128, .f32⟩ : BufTy).Contents (Elt F)) (x6 : (⟨S128, .f32⟩ : BufTy).Contents (Elt F)) (x7 : (⟨S128x40, .f32⟩ : BufTy).Contents (Elt F))
    (h_v63 : (U (Proc.devRef .tc main_v63) : (⟨S100000x128, .f32⟩ : BufTy).Contents (Elt F)) = val_main_v63 (F := F) x0 x1 x2 x3 x4 x5)
    (h_v28 : (U (Proc.devRef .tc main_v28) : (⟨S100000x128, .f32⟩ : BufTy).Contents (Elt F)) = val_main_v28 (F := F) x0 x3 x4 x5)
    (h_v34 : (U (Proc.devRef .tc main_v34) : (⟨S100000, .f32⟩ : BufTy).Contents (Elt F)) = val_main_v34 (F := F) x1 x2)
    (h_arg6 : (U (Proc.devRef .tc main_arg6) : (⟨S128, .f32⟩ : BufTy).Contents (Elt F)) = x6)
    (h_arg7 : (U (Proc.devRef .tc main_arg7) : (⟨S128x40, .f32⟩ : BufTy).Contents (Elt F)) = x7) :
    (after (opsC (F := F)) U (Proc.devRef .tc main_v72) : (⟨S100000x40, .f32⟩ : BufTy).Contents (Elt F)) = val_main_v72 (F := F) x0 x1 x2 x3 x4 x5 x6 x7 := by
  unfold opsC
  after_results_simp
  rw [h_v63, h_v28, h_v34, h_arg6, h_arg7]
  rfl
set_option maxHeartbeats 4000000 in
/-- The fourth run's inverse square root degrees, recomputed. -/
theorem stageD_v78 (U : Valuation τ sig (Elt F)) (x1 : (⟨S2x1600000, .i32⟩ : BufTy).Contents (Elt F)) (x2 : (⟨S1600000, .f32⟩ : BufTy).Contents (Elt F))
    (h_v3 : (U (Proc.devRef .tc main_v3) : (⟨S1600000, .i32⟩ : BufTy).Contents (Elt F)) = val_main_v3 (F := F) x1)
    (h_arg2 : (U (Proc.devRef .tc main_arg2) : (⟨S1600000, .f32⟩ : BufTy).Contents (Elt F)) = x2) :
    (after (opsD (F := F)) U (Proc.devRef .tc main_v78) : (⟨S100000, .f32⟩ : BufTy).Contents (Elt F)) = val_main_v78 (F := F) x1 x2 := by
  unfold opsD
  after_results_simp
  rw [h_v3, h_arg2]
  rfl
set_option maxHeartbeats 4000000 in
/-- The fourth run's aggregation of the second matrix product over the edges. -/
theorem stageD_v107 (U : Valuation τ sig (Elt F)) (x0 : (⟨S100000x512, .f32⟩ : BufTy).Contents (Elt F)) (x1 : (⟨S2x1600000, .i32⟩ : BufTy).Contents (Elt F)) (x2 : (⟨S1600000, .f32⟩ : BufTy).Contents (Elt F)) (x3 : (⟨S512, .f32⟩ : BufTy).Contents (Elt F)) (x4 : (⟨S512, .f32⟩ : BufTy).Contents (Elt F)) (x5 : (⟨S512x128, .f32⟩ : BufTy).Contents (Elt F)) (x6 : (⟨S128, .f32⟩ : BufTy).Contents (Elt F)) (x7 : (⟨S128x40, .f32⟩ : BufTy).Contents (Elt F))
    (h_v72 : (U (Proc.devRef .tc main_v72) : (⟨S100000x40, .f32⟩ : BufTy).Contents (Elt F)) = val_main_v72 (F := F) x0 x1 x2 x3 x4 x5 x6 x7)
    (h_v1 : (U (Proc.devRef .tc main_v1) : (⟨S1600000, .i32⟩ : BufTy).Contents (Elt F)) = val_main_v1 (F := F) x1)
    (h_v3 : (U (Proc.devRef .tc main_v3) : (⟨S1600000, .i32⟩ : BufTy).Contents (Elt F)) = val_main_v3 (F := F) x1)
    (h_arg2 : (U (Proc.devRef .tc main_arg2) : (⟨S1600000, .f32⟩ : BufTy).Contents (Elt F)) = x2) :
    (after (opsD (F := F)) U (Proc.devRef .tc main_v107) : (⟨S100000x40, .f32⟩ : BufTy).Contents (Elt F)) = val_main_v107 (F := F) x0 x1 x2 x3 x4 x5 x6 x7 := by
  unfold opsD
  after_results_simp
  rw [h_v72, h_v1, h_v3, h_arg2]
  rfl
set_option maxHeartbeats 4000000 in
/-- The fifth run's scores: the second aggregate plus the self loop plus the bias. -/
theorem stageE1_v115 (U : Valuation τ sig (Elt F)) (x0 : (⟨S100000x512, .f32⟩ : BufTy).Contents (Elt F)) (x1 : (⟨S2x1600000, .i32⟩ : BufTy).Contents (Elt F)) (x2 : (⟨S1600000, .f32⟩ : BufTy).Contents (Elt F)) (x3 : (⟨S512, .f32⟩ : BufTy).Contents (Elt F)) (x4 : (⟨S512, .f32⟩ : BufTy).Contents (Elt F)) (x5 : (⟨S512x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F))
    (h_v107 : (U (Proc.devRef .tc main_v107) : (⟨S100000x40, .f32⟩ : BufTy).Contents (Elt F)) = val_main_v107 (F := F) x0 x1 x2 x3 x4 x5 x6 x7)
    (h_v72 : (U (Proc.devRef .tc main_v72) : (⟨S100000x40, .f32⟩ : BufTy).Contents (Elt F)) = val_main_v72 (F := F) x0 x1 x2 x3 x4 x5 x6 x7)
    (h_v78 : (U (Proc.devRef .tc main_v78) : (⟨S100000, .f32⟩ : BufTy).Contents (Elt F)) = val_main_v78 (F := F) x1 x2)
    (h_arg8 : (U (Proc.devRef .tc main_arg8) : (⟨S40, .f32⟩ : BufTy).Contents (Elt F)) = x8) :
    (after (opsE1 (F := F)) U (Proc.devRef .tc main_v115) : (⟨S100000x40, .f32⟩ : BufTy).Contents (Elt F)) = val_main_v115 (F := F) x0 x1 x2 x3 x4 x5 x6 x7 x8 := by
  unfold opsE1
  after_results_simp
  rw [h_v107, h_v72, h_v78, h_arg8]
  rfl

/-- A value moved to another spelling of its type and back is the value: no comparison of the two spellings is needed. -/
theorem cast_cast_cancel {α β : Sort _} (h₁ : α = β) (h₂ : β = α) (a : α) : cast h₂ (cast h₁ a) = a := by
  subst h₁; rfl

/-- A buffer's contents that are a value, up to the spelling of the type, are that value moved to the buffer's spelling. -/
theorem eq_toBuf {T : BufTy} (x : TRef sig T) {u : x.ref.ty.Contents (Elt F)} {w : T.Contents (Elt F)} (h : HEq u w) : u = x.toBuf w :=
  eq_of_heq (h.trans (cast_heq _ _).symm)

/-- … and conversely. -/
theorem heq_of_eq_toBuf {T : BufTy} (x : TRef sig T) {u : x.ref.ty.Contents (Elt F)} {w : T.Contents (Elt F)} (h : u = x.toBuf w) : HEq u w :=
  (heq_of_eq h).trans (cast_heq _ _)

set_option maxHeartbeats 4000000 in
/-- The last run's log-probabilities of the scores. The scores come in, and the result goes out, in the buffers' own
    spelling of their type; in between every operation's moves cancel. -/
theorem stageE2_v116 (U : Valuation τ sig (Elt F)) (x0 : (⟨S100000x512, .f32⟩ : BufTy).Contents (Elt F)) (x1 : (⟨S2x1600000, .i32⟩ : BufTy).Contents (Elt F)) (x2 : (⟨S1600000, .f32⟩ : BufTy).Contents (Elt F)) (x3 : (⟨S512, .f32⟩ : BufTy).Contents (Elt F)) (x4 : (⟨S512, .f32⟩ : BufTy).Contents (Elt F)) (x5 : (⟨S512x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F))
    (h_v115 : U (Proc.devRef .tc main_v115) = (TRef.of (T := ⟨S100000x40, .f32⟩) main_v115).toBuf (val_main_v115 (F := F) x0 x1 x2 x3 x4 x5 x6 x7 x8)) :
    after (opsE2 (F := F)) U (Proc.devRef .tc main_v116) = (TRef.of (T := ⟨S100000x40, .f32⟩) main_v116).toBuf (val_main_v116 (F := F) x0 x1 x2 x3 x4 x5 x6 x7 x8) := by
  unfold opsE2
  after_results_simp
  rw [h_v115]
  simp only [cast_cast_cancel]
  exact congrArg _ rfl

/-! ## The six runs composed -/

/-- The fold over all the operations is the fold over the six runs in turn. -/
theorem after_runs (W : Valuation τ sig (Elt F)) :
    after (ops (F := F)) W = after opsE2 (after opsE1 (after opsD (after opsC (after opsB (after opsA W))))) :=
  (congrArg (fun l => after l W) (ops_split (F := F))).trans (by
    rw [after_append, after_append, after_append, after_append, after_append])

/-- After all 154 operations the result buffer holds the last stage of the arguments' contents. -/
theorem result_fold (W : Valuation τ sig (Elt F)) :
    (after (ops (F := F)) W (Proc.devRef .tc main_v116) : (⟨S100000x40, .f32⟩ : BufTy).Contents (Elt F))
      = val_main_v116 (F := F) (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) (W (Proc.devRef .tc main_arg7)) (W (Proc.devRef .tc main_arg8)) := by
  refine (congrFun (after_runs W) _).trans ?_
  -- the contents after the first, second, third and fourth run
  have a1 := stageA_v1 W
  have a3 := stageA_v3 W
  have a28 := stageA_v28 W
  have b34 := stageB_v34 (after opsA W) _ _ a3 (keepA_arg2 W)
  have b63 := stageB_v63 (after opsA W) _ _ _ _ _ _ a28 a1 a3 (keepA_arg2 W)
  have b28 := (keepB_v28 (after opsA W)).trans a28
  have b1 := (keepB_v1 (after opsA W)).trans a1
  have b3 := (keepB_v3 (after opsA W)).trans a3
  have b2 := (keepB_arg2 (after opsA W)).trans (keepA_arg2 W)
  have b6 := (keepB_arg6 (after opsA W)).trans (keepA_arg6 W)
  have b7 := (keepB_arg7 (after opsA W)).trans (keepA_arg7 W)
  have b8 := (keepB_arg8 (after opsA W)).trans (keepA_arg8 W)
  have c72 := stageC_v72 (after opsB (after opsA W)) _ _ _ _ _ _ _ _ b63 b28 b34 b6 b7
  have c1 := (keepC_v1 (after opsB (after opsA W))).trans b1
  have c3 := (keepC_v3 (after opsB (after opsA W))).trans b3
  have c2 := (keepC_arg2 (after opsB (after opsA W))).trans b2
  have c8 := (keepC_arg8 (after opsB (after opsA W))).trans b8
  have d78 := stageD_v78 (after opsC (after opsB (after opsA W))) _ _ c3 c2
  have d107 := stageD_v107 (after opsC (after opsB (after opsA W))) _ _ _ _ _ _ _ _ c72 c1 c3 c2
  have d72 := (keepD_v72 (after opsC (after opsB (after opsA W)))).trans c72
  have d8 := (keepD_arg8 (after opsC (after opsB (after opsA W)))).trans c8
  have e115 := stageE1_v115 (after opsD (after opsC (after opsB (after opsA W)))) _ _ _ _ _ _ _ _ _ d107 d72 d78 d8
  have e116 := stageE2_v116 (after opsE1 (after opsD (after opsC (after opsB (after opsA W))))) _ _ _ _ _ _ _ _ _
    (eq_toBuf (TRef.of (T := ⟨S100000x40, .f32⟩) main_v115) (heq_of_eq e115))
  exact eq_of_heq (heq_of_eq_toBuf (TRef.of (T := ⟨S100000x40, .f32⟩) main_v116) e116)

end Cert.ReferenceIdeal.Fold

end
-- ==== Proof.RefStages.lean ====
/- The reference program's three dense stages, each read at one entry, are the row-wise functions of the
   specification: the layer-normalised rows projected by the first weight matrix; the aggregate plus the self loop plus
   the bias, projected by the second weight matrix; the same sum at width 40 turned into log-probabilities. The
   neighbourhood aggregates, the projected rows they weigh and the squared inverse root degrees enter as whole arrays and
   are not looked into. -/
import proofs.«106843_j16415365005353_1_alg».proof.Proof.ReadP
import proofs.«106843_j16415365005353_1_alg».proof.Proof.RowOps
import proofs.«106843_j16415365005353_1_alg».proof.Proof.LibRowReduce
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.ReadP
open Idealize.ShloMosaic Idealize.ShloMosaic.ValueIdx

/-- Two indices of a rank-one shape with the same coordinate are equal. -/
local macro "idx1" : tactic => `(tactic| exact funext fun a => Fin.ext (by match a with | ⟨0, _⟩ => rfl))
/-- Two indices of a rank-two shape with the same coordinates are equal. -/
local macro "idx2" : tactic => `(tactic| exact funext fun a => Fin.ext (by match a with | ⟨0, _⟩ => rfl | ⟨1, _⟩ => rfl))

/-! ## The first dense stage -/

section First

variable (x0 : (⟨S100000x512, .f32⟩ : BufTy).Contents (Elt Ideal)) (x3 x4 : (⟨S512, .f32⟩ : BufTy).Contents (Elt Ideal))
  (x5 : (⟨S512x128, .f32⟩ : BufTy).Contents (Elt Ideal))

/-- The reference's column of row means, at row r: the sum of row r of the features, from zero, divided by 512. -/
theorem mean_eq (r : Fin 100000) :
    val_main_v7 (F := Ideal) x0 (ix2 r (0 : Fin 1)) = Cert.Gcn.rowMean (fun k' => x0 (ix2 r k')) := by
  have e4 : ∀ k : Fin 512, idx_main_v4 (idx_main_v5 (ix2 r (0 : Fin 1))) k = ix2 r k := fun k => by idx2
  unfold Cert.Gcn.rowMean
  rw [val_main_v7_apply, val_main_v5_apply, val_main_v6_apply, val_main_v4_apply]
  simp only [e4, val_main_cst_apply, val_main_cst_0_apply, Ideal.hostDivf_def, Ideal.ofBits_def, Ideal.ofBits_zero_f32, zero_add]

/-- The reference's column of row variances, at row r: the sum of the squared deviations of row r from its mean, from
    zero, divided by 512. The deviations are taken from the broadcast column of means, which at any entry of row r is the
    mean of row r. -/
theorem var_eq (r : Fin 100000) :
    val_main_v14 (F := Ideal) x0 (ix2 r (0 : Fin 1)) = Cert.Gcn.rowVar (fun k' => x0 (ix2 r k')) := by
  have e11 : ∀ k : Fin 512, idx_main_v11 (idx_main_v12 (ix2 r (0 : Fin 1))) k = ix2 r k := fun k => by idx2
  have e8 : ∀ k : Fin 512, idx_main_v8 (ix2 r k) = ix2 r (0 : Fin 1) := fun k => by idx2
  unfold Cert.Gcn.rowVar
  rw [val_main_v14_apply, val_main_v12_apply, val_main_v13_apply, val_main_v11_apply]
  simp only [e11, val_main_v10_apply, val_main_v9_apply, val_main_v8_apply, e8, mean_eq, val_main_cst_1_apply, val_main_cst_2_apply,
    Ideal.hostDivf_def, Ideal.ofBits_def, Ideal.ofBits_zero_f32, zero_add, Ideal.mulf_def, Ideal.subf_def]

/-- The reference's normalised features at entry (r, k): the deviation of the entry from its row's mean, times the
    reciprocal root of the row's variance plus the small constant, times the gain at k, plus the offset at k. -/
theorem ln_eq (r : Fin 100000) (k : Fin 512) :
    val_main_v27 (F := Ideal) x0 x3 x4 (ix2 r k)
      = Cert.Gcn.lnRow (fun k' => x0 (ix2 r k')) (fun k' => x3 (ix1 k')) (fun k' => x4 (ix1 k')) k := by
  have e15 : idx_main_v15 (ix2 r k) = ix2 r (0 : Fin 1) := by idx2
  have e20 : idx_main_v20 (ix2 r k) = ix2 r (0 : Fin 1) := by idx2
  have e23 : idx_main_v22 (idx_main_v23 (ix2 r k)) = ix1 k := by idx1
  have e26 : idx_main_v25 (idx_main_v26 (ix2 r k)) = ix1 k := by idx1
  unfold Cert.Gcn.lnRow
  rw [val_main_v27_apply, val_main_v24_apply, val_main_v26_apply, val_main_v25_apply, val_main_v21_apply, val_main_v23_apply,
    val_main_v22_apply, val_main_v16_apply, val_main_v20_apply, val_main_v19_apply, val_main_v18_apply, val_main_v17_apply,
    val_main_v15_apply, e15, e20, e23, e26, mean_eq, var_eq]
  simp only [val_main_cst_3_apply, Ideal.ofBits_def, Ideal.addf_def, Ideal.mulf_def, Ideal.subf_def, Ideal.hostUnary_rsqrt_def]

/-- Entry (r, j) of the first projection: the contraction over the 512 input features of the normalised row r with
    column j of the first weight matrix. -/
theorem val_main_v28_eq (r : Fin 100000) (j : Fin 128) :
    val_main_v28 (F := Ideal) x0 x3 x4 x5 (ix2 r j)
      = Cert.Gcn.normProj (R := 100000) x0 (fun k => x3 (ix1 k)) (fun k => x4 (ix1 k)) x5 r j := by
  rw [val_main_v28_apply]
  unfold Cert.Gcn.normProj
  refine Finset.sum_congr rfl fun k _ => ?_
  have el : lidx_main_v28 (ix2 r j) k = ix2 r k := by idx2
  have er : ridx_main_v28 (ix2 r j) k = ix2 k j := by idx2
  rw [el, er, ln_eq]

end First

/-! ## The second dense stage -/

/-- Entry (r, j) of the second projection: the contraction over the 128 hidden features of row r of
    "aggregate + own row × squared inverse root degree + bias" with column j of the second weight matrix. The
    reference broadcasts the degree weights along the row and the bias along the column; read at one entry each
    broadcast is its operand at the row, respectively the column. -/
theorem val_main_v72_eq (x0 : (⟨S100000x512, .f32⟩ : BufTy).Contents (Elt Ideal)) (x1 : (⟨S2x1600000, .i32⟩ : BufTy).Contents (Elt Ideal))
    (x2 : (⟨S1600000, .f32⟩ : BufTy).Contents (Elt Ideal)) (x3 x4 : (⟨S512, .f32⟩ : BufTy).Contents (Elt Ideal))
    (x5 : (⟨S512x128, .f32⟩ : BufTy).Contents (Elt Ideal)) (x6 : (⟨S128, .f32⟩ : BufTy).Contents (Elt Ideal))
    (x7 : (⟨S128x40, .f32⟩ : BufTy).Contents (Elt Ideal)) (r : Fin 100000) (j : Fin 40) :
    val_main_v72 (F := Ideal) x0 x1 x2 x3 x4 x5 x6 x7 (ix2 r j)
      = Cert.Gcn.loopProj (R := 100000) (val_main_v63 (F := Ideal) x0 x1 x2 x3 x4 x5) (val_main_v28 (F := Ideal) x0 x3 x4 x5)
          (fun r' => val_main_v64 (F := Ideal) x1 x2 (ix1 r')) (fun k => x6 (ix1 k)) x7 r j := by
  rw [val_main_v72_apply]
  unfold Cert.Gcn.loopProj Cert.Gcn.selfLoop
  refine Finset.sum_congr rfl fun k _ => ?_
  have el : lidx_main_v72 (ix2 r j) k = ix2 r k :=
    funext fun a => Fin.ext (by match a with | ⟨0, _⟩ => rfl | ⟨1, _⟩ => rfl)
  have er : ridx_main_v72 (ix2 r j) k = ix2 k j :=
    funext fun a => Fin.ext (by match a with | ⟨0, _⟩ => rfl | ⟨1, _⟩ => rfl)
  have e1 : idx_main_v65 (idx_main_v66 (ix2 r k)) = ix1 r :=
    funext fun a => Fin.ext (by match a with | ⟨0, _⟩ => rfl)
  have e2 : idx_main_v69 (idx_main_v70 (ix2 r k)) = ix1 k :=
    funext fun a => Fin.ext (by match a with | ⟨0, _⟩ => rfl)
  rw [el, er, val_main_v71_apply, val_main_v68_apply, val_main_v67_apply, val_main_v70_apply, val_main_v69_apply,
    val_main_v66_apply, val_main_v65_apply, e1, e2]
  rfl

/-! ## The third stage: the self loop at width 40, then the log-probabilities of each row -/

section Third

variable (x0 : (⟨S100000x512, .f32⟩ : BufTy).Contents (Elt Ideal)) (x1 : (⟨S2x1600000, .i32⟩ : BufTy).Contents (Elt Ideal))
  (x2 : (⟨S1600000, .f32⟩ : BufTy).Contents (Elt Ideal)) (x3 x4 : (⟨S512, .f32⟩ : BufTy).Contents (Elt Ideal))
  (x5 : (⟨S512x128, .f32⟩ : BufTy).Contents (Elt Ideal)) (x6 : (⟨S128, .f32⟩ : BufTy).Contents (Elt Ideal))
  (x7 : (⟨S128x40, .f32⟩ : BufTy).Contents (Elt Ideal)) (x8 : (⟨S40, .f32⟩ : BufTy).Contents (Elt Ideal))

/-- The scores at entry (r, j'): the aggregate there, plus the projected row's entry times the squared inverse root
    degree of node r, plus the bias at j'. The reference broadcasts the degree weights along the row and the bias along
    the column. -/
theorem score_eq (r : Fin 100000) (j' : Fin 40) :
    val_main_v115 (F := Ideal) x0 x1 x2 x3 x4 x5 x6 x7 x8 (ix2 r j')
      = Cert.Gcn.selfLoop (val_main_v107 (F := Ideal) x0 x1 x2 x3 x4 x5 x6 x7 (ix2 r j'))
          (val_main_v72 (F := Ideal) x0 x1 x2 x3 x4 x5 x6 x7 (ix2 r j')) (val_main_v108 (F := Ideal) x1 x2 (ix1 r)) (x8 (ix1 j')) := by
  have e110 : idx_main_v109 (idx_main_v110 (ix2 r j')) = ix1 r := by idx1
  have e114 : idx_main_v113 (idx_main_v114 (ix2 r j')) = ix1 j' := by idx1
  rw [val_main_v115_apply, val_main_v112_apply, val_main_v111_apply, val_main_v114_apply, val_main_v113_apply,
    val_main_v110_apply, val_main_v109_apply, e110, e114]
  rfl

/-- The reference's vector of row maxima at r: a reduction with maximum over the 40 columns from minus infinity is the
    fold of max over the row's scores from minus infinity. -/
theorem rowmax_eq (r : Fin 100000) :
    val_main_call0_v0 (F := Ideal) x0 x1 x2 x3 x4 x5 x6 x7 x8 (ix1 r)
      = Cert.Gcn.rowMax (fun j' => val_main_v115 (F := Ideal) x0 x1 x2 x3 x4 x5 x6 x7 x8 (ix2 r j')) := by
  unfold val_main_call0_v0 Cert.Gcn.rowMax
  exact RowReduce.hostMax_axis1_apply (val_main_v115 (F := Ideal) x0 x1 x2 x3 x4 x5 x6 x7 x8) (val_main_call0_cst (F := Ideal))
    reducesTo_S100000x40_S100000_d1 (by decide) h_S_ r

/-- The shifted scores at entry (r, j'): the score minus its row's maximum. The reference takes the maximum of minus
    infinity and the row maximum, which is the row maximum, the fold having started from minus infinity. -/
theorem shifted_eq (r : Fin 100000) (j' : Fin 40) :
    val_main_call0_v5 (F := Ideal) x0 x1 x2 x3 x4 x5 x6 x7 x8 (ix2 r j')
      = val_main_v115 (F := Ideal) x0 x1 x2 x3 x4 x5 x6 x7 x8 (ix2 r j')
        - Cert.Gcn.rowMax (fun j'' => val_main_v115 (F := Ideal) x0 x1 x2 x3 x4 x5 x6 x7 x8 (ix2 r j'')) := by
  have e3 : idx_main_call0_v3 (idx_main_call0_v4 (ix2 r j')) = ix1 r := by idx1
  rw [val_main_call0_v5_apply, val_main_call0_v4_apply, val_main_call0_v3_apply, e3, val_main_call0_v2_apply,
    val_main_call0_v1_apply, rowmax_eq]
  simp only [val_main_call0_cst_0_apply, Ideal.ofBits_def, Ideal.subf_def, Ideal.maximumf_def]
  unfold Cert.Gcn.rowMax
  rw [Cert.Gcn.max_start_fold]

/-- The reference's vector of sums of exponentials at r: from zero, the sum over the row of the exponentials of the
    shifted scores. -/
theorem expsum_eq (r : Fin 100000) :
    val_main_call0_v7 (F := Ideal) x0 x1 x2 x3 x4 x5 x6 x7 x8 (ix1 r)
      = ∑ k : Fin 40, Ideal.exp (val_main_v115 (F := Ideal) x0 x1 x2 x3 x4 x5 x6 x7 x8 (ix2 r k)
          - Cert.Gcn.rowMax (fun j'' => val_main_v115 (F := Ideal) x0 x1 x2 x3 x4 x5 x6 x7 x8 (ix2 r j''))) := by
  rw [val_main_call0_v7_apply, val_main_call0_cst_1_apply, Ideal.ofBits_def, Ideal.ofBits_zero_f32, zero_add]
  refine Finset.sum_congr rfl fun k _ => ?_
  have e7 : idx_main_call0_v7 (ix1 r) k = ix2 r k := by idx2
  rw [e7, val_main_call0_v6_apply, shifted_eq, Ideal.hostUnary_exp_def]

/-- The log-probabilities of a row of scores, written out. -/
theorem logSoftmaxRow_eq (V : Fin 40 → EReal) (j : Fin 40) :
    (V j - Cert.Gcn.rowMax V) - Ideal.log (∑ k : Fin 40, Ideal.exp (V k - Cert.Gcn.rowMax V)) = Cert.Gcn.logSoftmaxRow V j := rfl

/-- Entry (r, j) of the reference's result: the shifted score minus the logarithm of the sum over the row of the
    exponentials of the shifted scores, the scores being the self-loop sums of row r. -/
theorem val_main_v116_eq (r : Fin 100000) (j : Fin 40) :
    val_main_v116 (F := Ideal) x0 x1 x2 x3 x4 x5 x6 x7 x8 (ix2 r j)
      = Cert.Gcn.loopLogSoftmax (R := 100000) (val_main_v107 (F := Ideal) x0 x1 x2 x3 x4 x5 x6 x7)
          (val_main_v72 (F := Ideal) x0 x1 x2 x3 x4 x5 x6 x7) (fun r' => val_main_v108 (F := Ideal) x1 x2 (ix1 r'))
          (fun j' => x8 (ix1 j')) r j := by
  have e8 : idx_main_call0_v8 (idx_main_call0_v10 (ix2 r j)) = ix1 r := by idx1
  have hs : (fun j' : Fin 40 => Cert.Gcn.selfLoop (val_main_v107 (F := Ideal) x0 x1 x2 x3 x4 x5 x6 x7 (ix2 r j'))
        (val_main_v72 (F := Ideal) x0 x1 x2 x3 x4 x5 x6 x7 (ix2 r j')) (val_main_v108 (F := Ideal) x1 x2 (ix1 r)) (x8 (ix1 j')))
      = fun j' => val_main_v115 (F := Ideal) x0 x1 x2 x3 x4 x5 x6 x7 x8 (ix2 r j') :=
    funext fun j' => (score_eq x0 x1 x2 x3 x4 x5 x6 x7 x8 r j').symm
  rw [val_main_v116_apply, val_main_call0_v10_apply, val_main_call0_v9_apply, val_main_call0_v8_apply, e8, expsum_eq, shifted_eq,
    Ideal.subf_def, Ideal.hostUnary_log_def]
  refine (logSoftmaxRow_eq (fun j' => val_main_v115 (F := Ideal) x0 x1 x2 x3 x4 x5 x6 x7 x8 (ix2 r j')) j).trans ?_
  rw [← hs]
  rfl

end Third

end Cert.ReferenceIdeal.Stages

end
-- ==== Proof.Bridge.lean ====
/-
  The two programs compute one function.

  Stage by stage the tiled program's closed form (`hidden`, `scores`, `output`) is the reference's stage of the same name in
  its own program: the dense parts by the row-wise formulas both sides were read as, the aggregations over the edges
  because both programs apply the same gather, scaling and scatter-add to tables already shown equal. The squared inverse
  root degrees reach the tiled program as a column and the reference as a vector; the gain, offset and bias rows as a
  recast vector on one side and a broadcast vector on the other: entry by entry they are the same numbers.
-/
import proofs.«106843_j16415365005353_1_alg».proof.Proof.KernelValue
import proofs.«106843_j16415365005353_1_alg».proof.Proof.RefStages
import Idealize.ShloMosaic.Lib.ValueLayout

set_option maxRecDepth 16384

noncomputable section

namespace Cert.Bridge

open Idealize.ShloMosaic Idealize.ShloMosaic.ValueIdx
open Cert.KernelIdeal.Fold Cert.KernelIdeal.Value Cert.ReferenceIdeal.ReadP Cert.ReferenceIdeal.Stages

variable (x0 : FVec Ideal ⟨2, ![100000, 512]⟩ .f32) (x1 : IVec ⟨2, ![2, 1600000]⟩ 32) (x2 : FVec Ideal ⟨1, ![1600000]⟩ .f32)
  (x3 x4 : FVec Ideal ⟨1, ![512]⟩ .f32) (x5 : FVec Ideal ⟨2, ![512, 128]⟩ .f32) (x6 : FVec Ideal ⟨1, ![128]⟩ .f32)
  (x7 : FVec Ideal ⟨2, ![128, 40]⟩ .f32) (x8 : FVec Ideal ⟨1, ![40]⟩ .f32)

/-- The inverse square root degrees are one vector in both programs. -/
theorem dinv_eq : dinvOf (F := Ideal) x1 x2 = val_main_v34 (F := Ideal) x1 x2 := rfl

/-- The reference recomputes them for its second layer: the same vector again. -/
theorem dinv_eq' : dinvOf (F := Ideal) x1 x2 = val_main_v78 (F := Ideal) x1 x2 := rfl

/-- The column of squared inverse root degrees at row r is the reference's vector of them at r (first layer). -/
theorem dsq_eq (r : Fin 100000) : dinvSqCol (F := Ideal) x1 x2 (ix2 r (0 : Fin 1)) = val_main_v64 (F := Ideal) x1 x2 (ix1 r) := by
  have e : mulf (dinvOf (F := Ideal) x1 x2) (dinvOf (F := Ideal) x1 x2) = val_main_v64 (F := Ideal) x1 x2 := rfl
  exact (Keepdims.shapeCast_a_a1_apply _ _ r 0).trans (congrFun e (ix1 r))

/-- … and the vector the reference recomputes for its second layer. -/
theorem dsq_eq' (r : Fin 100000) : dinvSqCol (F := Ideal) x1 x2 (ix2 r (0 : Fin 1)) = val_main_v108 (F := Ideal) x1 x2 (ix1 r) := by
  have e : mulf (dinvOf (F := Ideal) x1 x2) (dinvOf (F := Ideal) x1 x2) = val_main_v108 (F := Ideal) x1 x2 := rfl
  exact (Keepdims.shapeCast_a_a1_apply _ _ r 0).trans (congrFun e (ix1 r))

/-- The first layer's dense part is the reference's first matrix product. -/
theorem hidden_eq : hidden x0 x3 x4 x5 = val_main_v28 (F := Ideal) x0 x3 x4 x5 := by
  funext i
  obtain ⟨r, j, rfl⟩ : ∃ (r : Fin 100000) (j : Fin 128), i = ix2 r j := ⟨i 0, i 1, eq_ix2 i⟩
  rw [val_main_v28_eq]
  exact Cert.Gcn.normProj_congr _ _ _ _ _ _ _ _ _ _ _ _ (fun _ => rfl) (funext fun k => shapeCast_a_1a_apply x3 _ 0 k)
    (funext fun k => shapeCast_a_1a_apply x4 _ 0 k) (fun _ => rfl)

/-- The first aggregation over the edges, applied to the reference's first matrix product, is the reference's own. -/
theorem aggregate128_eq : aggregate128 (F := Ideal) (val_main_v28 (F := Ideal) x0 x3 x4 x5) x1 x2 = val_main_v63 (F := Ideal) x0 x1 x2 x3 x4 x5 := rfl

/-- The second layer's dense part is the reference's second matrix product. -/
theorem scores_eq : scores x0 x1 x2 x3 x4 x5 x6 x7 = val_main_v72 (F := Ideal) x0 x1 x2 x3 x4 x5 x6 x7 := by
  funext i
  obtain ⟨r, j, rfl⟩ : ∃ (r : Fin 100000) (j : Fin 40), i = ix2 r j := ⟨i 0, i 1, eq_ix2 i⟩
  rw [val_main_v72_eq]
  unfold scores
  rw [hidden_eq, aggregate128_eq]
  exact Cert.Gcn.loopProj_congr _ _ _ _ _ _ _ _ _ _ _ _ _ _ (fun _ => rfl) (fun _ => rfl) (dsq_eq x1 x2 r)
    (funext fun k => shapeCast_a_1a_apply x6 _ 0 k) (fun _ => rfl)

/-- The second aggregation over the edges likewise. -/
theorem aggregate40_eq : aggregate40 (F := Ideal) (val_main_v72 (F := Ideal) x0 x1 x2 x3 x4 x5 x6 x7) x1 x2 = val_main_v107 (F := Ideal) x0 x1 x2 x3 x4 x5 x6 x7 := rfl

/-- The tiled program's result is the reference's. -/
theorem output_eq : output x0 x1 x2 x3 x4 x5 x6 x7 x8 = val_main_v116 (F := Ideal) x0 x1 x2 x3 x4 x5 x6 x7 x8 := by
  funext i
  obtain ⟨r, j, rfl⟩ : ∃ (r : Fin 100000) (j : Fin 40), i = ix2 r j := ⟨i 0, i 1, eq_ix2 i⟩
  rw [val_main_v116_eq]
  unfold output
  rw [scores_eq, aggregate40_eq]
  exact Cert.Gcn.loopLogSoftmax_congr _ _ _ _ _ _ _ _ _ _ _ _ (fun _ => rfl) (fun _ => rfl) (dsq_eq' x1 x2 r)
    (funext fun k => shapeCast_a_1a_apply x8 _ 0 k) rfl

end Cert.Bridge

end
-- ==== Proof.lean ====
/-
  A two-layer graph convolution, tiled over the node axis, against its plain reference.

  Both programs normalise each node's 512 features (mean, variance, reciprocal root, gain and offset), project them to 128,
  aggregate over the weighted edges with symmetric degree normalisation, add each node's own row weighted by its inverse
  degree and a bias, project to 40, aggregate and add again, and end with a row-wise log-softmax. The tiled program does
  the three dense parts in blocks of 2000 nodes — 50 blocks each — with the matrix products fed through a narrower float
  format and accumulated from zero, and does the edge aggregations between them on whole arrays; the reference does
  everything on whole arrays. On the extended reals a change of float format is the identity and every dense part is
  row-wise, so block by block the tiled program computes the reference's function: the claims below.

  * The three frames: the tiled program's at both instances are the generated run over its three regions; the reference's is
    its run of 154 host operations with the result dropped.
  * The idealization rewrote nothing, so `preserves` is trivial.
  * `algebraic`: the tiled program's result array is `Value.output` of the arguments (the regions' closed forms chained
    through the host stretches), the reference's is its last stage `val_main_v116` of the arguments (its operations read in
    five runs), and the two are one function (`Bridge.output_eq`). No law beyond the commutative monoid of sums is used, so the
    inputs' finiteness is never opened.
-/
import proofs.«106843_j16415365005353_1_alg».proof.Defs
import proofs.«106843_j16415365005353_1_alg».proof.Proof.Gen.Kernel
import proofs.«106843_j16415365005353_1_alg».proof.Proof.Gen.Kernel.Skeleton
import proofs.«106843_j16415365005353_1_alg».proof.Proof.Gen.Kernel.Launch
import proofs.«106843_j16415365005353_1_alg».proof.Proof.Gen.Kernel.Points
import proofs.«106843_j16415365005353_1_alg».proof.Proof.Gen.Kernel.Frame
import proofs.«106843_j16415365005353_1_alg».proof.Proof.Gen.KernelIdeal
import proofs.«106843_j16415365005353_1_alg».proof.Proof.Gen.KernelIdeal.Skeleton
import proofs.«106843_j16415365005353_1_alg».proof.Proof.Gen.KernelIdeal.Launch
import proofs.«106843_j16415365005353_1_alg».proof.Proof.Gen.KernelIdeal.Points
import proofs.«106843_j16415365005353_1_alg».proof.Proof.Gen.KernelIdeal.Frame
import proofs.«106843_j16415365005353_1_alg».proof.Proof.Gen.ReferenceIdeal
import proofs.«106843_j16415365005353_1_alg».proof.Proof.Gen.Pre_finite_inputs
import proofs.«106843_j16415365005353_1_alg».proof.Proof.KernelValue
import proofs.«106843_j16415365005353_1_alg».proof.Proof.RunP
import proofs.«106843_j16415365005353_1_alg».proof.Proof.RefFold
import proofs.«106843_j16415365005353_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The tiled program as printed runs, and leaves its arguments unchanged. -/
theorem frame_kernel : Cert.frame_Kernel := fun m ρ _ => Cert.Kernel.Gen.frame m ρ

/-- The same of its idealization. -/
theorem frame_kernelIdeal : Cert.frame_KernelIdeal := fun m ρ _ => Cert.KernelIdeal.Gen.frame m ρ

/-- The reference runs, and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- On the extended reals, from memories agreeing on the arguments, both programs end with the log-probabilities
    `Value.output` of the arguments in their result arrays. -/
theorem algebraic : Cert.algebraic_KernelIdeal_ReferenceIdeal := by
  intro m ρ m' ρ' _ hagree
  refine ⟨fun c => Cert.KernelIdeal.Value.output
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Value.after_region2 m ρ c), (h c).2⟩)
      (Cert.KernelIdeal.Fold.run_value (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8⟩ := hagree c
    refine (Cert.ReferenceIdeal.Fold.result_fold (F := Ideal) (StableHlo.launchContents m' c)).trans ?_
    show Cert.ReferenceIdeal.ReadP.val_main_v116 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) = _
    rw [a0, a1, a2, a3, a4, a5, a6, a7, a8]
    exact (Cert.Bridge.output_eq _ _ _ _ _ _ _ _ _).symm

/-- Everything the certificate claims. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
